-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v9_0)) (v1 : (c : Dev Cert.KernelIdeal.nD) → Buf (Elt Ideal) ((c.tc : Thread Cert.KernelIdeal.nD Cert.KernelIdeal.τ).loc Cert.KernelIdeal.main_v9_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9_0) = v0 c
          ∧ r.2.mem ((c.tc : Thread Cert.KernelIdeal.nD Cert.KernelIdeal.τ).loc Cert.KernelIdeal.main_v9_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v33) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16384x512 : Shape := ⟨2, ![16384, 512]⟩
abbrev S512x1024 : Shape := ⟨2, ![512, 1024]⟩
abbrev S512 : Shape := ⟨1, ![512]⟩
abbrev S_ : Shape := ⟨0, ![]⟩

class Facts : Prop where
  bcast_S_S16384x512 : S_.BroadcastsInDim S16384x512 (![] : Fin 0 → Fin S16384x512.rank)
  reducesTo_S16384x512_S_d0_1 : S16384x512.ReducesTo [0, 1] S_
  h_S_ : 0 < S_.numel
  bcast_S_S512x1024 : S_.BroadcastsInDim S512x1024 (![] : Fin 0 → Fin S512x1024.rank)
  reducesTo_S512x1024_S_d0_1 : S512x1024.ReducesTo [0, 1] S_
  bcast_S_S512 : S_.BroadcastsInDim S512 (![] : Fin 0 → Fin S512.rank)
  reducesTo_S512_S_d0 : S512.ReducesTo [0] S_

variable [Facts]

def fn_part3 {F : FTy → Type} [FloatOps F] (main_v48 : IVec S_ 1) (main_v49 : FVec F S512 .f32) (main_v50 : FVec F S512 .f32) : IVec S_ 1 :=
  let main_v51 : IVec S512 1 := cmpf .olt main_v49 main_v50
  let main_c_19 : IVec S_ 1 := constantI S_ 1 1#1
  let main_v52 : IVec S_ 1 := (fun x v => Host.reduce IntOp.andi x v reducesTo_S512_S_d0 h_S_) main_v51 main_c_19
  let main_v53 : IVec S_ 1 := andi main_v48 main_v52
  main_v53

def fn_part2 {F : FTy → Type} [FloatOps F] (main_arg7 : FVec F S512x1024 .f32) (main_arg8 : FVec F S512 .f32) (main_arg9 : FVec F S512x1024 .f32) (main_arg10 : FVec F S512 .f32) (main_v33 : IVec S_ 1) : IVec S_ 1 :=
  let main_v34 : FVec F S512x1024 .f32 := Host.absf main_arg7
  let main_cst_12 : FVec F S_ .f32 := constant S_ .f32 0x7F800000#32
  let main_v35 : FVec F S512x1024 .f32 := broadcastInDim S512x1024 ![] bcast_S_S512x1024 main_cst_12
  let main_v36 : IVec S512x1024 1 := cmpf .olt main_v34 main_v35
  let main_c_13 : IVec S_ 1 := constantI S_ 1 1#1
  let main_v37 : IVec S_ 1 := (fun x v => Host.reduce IntOp.andi x v reducesTo_S512x1024_S_d0_1 h_S_) main_v36 main_c_13
  let main_v38 : IVec S_ 1 := andi main_v33 main_v37
  let main_v39 : FVec F S512 .f32 := Host.absf main_arg8
  let main_cst_14 : FVec F S_ .f32 := constant S_ .f32 0x7F800000#32
  let main_v40 : FVec F S512 .f32 := broadcastInDim S512 ![] bcast_S_S512 main_cst_14
  let main_v41 : IVec S512 1 := cmpf .olt main_v39 main_v40
  let main_c_15 : IVec S_ 1 := constantI S_ 1 1#1
  let main_v42 : IVec S_ 1 := (fun x v => Host.reduce IntOp.andi x v reducesTo_S512_S_d0 h_S_) main_v41 main_c_15
  let main_v43 : IVec S_ 1 := andi main_v38 main_v42
  let main_v44 : FVec F S512x1024 .f32 := Host.absf main_arg9
  let main_cst_16 : FVec F S_ .f32 := constant S_ .f32 0x7F800000#32
  let main_v45 : FVec F S512x1024 .f32 := broadcastInDim S512x1024 ![] bcast_S_S512x1024 main_cst_16
  let main_v46 : IVec S512x1024 1 := cmpf .olt main_v44 main_v45
  let main_c_17 : IVec S_ 1 := constantI S_ 1 1#1
  let main_v47 : IVec S_ 1 := (fun x v => Host.reduce IntOp.andi x v reducesTo_S512x1024_S_d0_1 h_S_) main_v46 main_c_17
  let main_v48 : IVec S_ 1 := andi main_v43 main_v47
  let main_v49 : FVec F S512 .f32 := Host.absf main_arg10
  let main_cst_18 : FVec F S_ .f32 := constant S_ .f32 0x7F800000#32
  let main_v50 : FVec F S512 .f32 := broadcastInDim S512 ![] bcast_S_S512 main_cst_18
  fn_part3 (F := F) main_v48 main_v49 main_v50

def fn_part1 {F : FTy → Type} [FloatOps F] (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) (main_v13 : IVec S_ 1) (main_v16 : IVec S512x1024 1) : IVec S_ 1 :=
  let main_c_5 : IVec S_ 1 := constantI S_ 1 1#1
  let main_v17 : IVec S_ 1 := (fun x v => Host.reduce IntOp.andi x v reducesTo_S512x1024_S_d0_1 h_S_) main_v16 main_c_5
  let main_v18 : IVec S_ 1 := andi main_v13 main_v17
  let main_v19 : FVec F S512 .f32 := Host.absf main_arg4
  let main_cst_6 : FVec F S_ .f32 := constant S_ .f32 0x7F800000#32
  let main_v20 : FVec F S512 .f32 := broadcastInDim S512 ![] bcast_S_S512 main_cst_6
  let main_v21 : IVec S512 1 := cmpf .olt main_v19 main_v20
  let main_c_7 : IVec S_ 1 := constantI S_ 1 1#1
  let main_v22 : IVec S_ 1 := (fun x v => Host.reduce IntOp.andi x v reducesTo_S512_S_d0 h_S_) main_v21 main_c_7
  let main_v23 : IVec S_ 1 := andi main_v18 main_v22
  let main_v24 : FVec F S512x1024 .f32 := Host.absf main_arg5
  let main_cst_8 : FVec F S_ .f32 := constant S_ .f32 0x7F800000#32
  let main_v25 : FVec F S512x1024 .f32 := broadcastInDim S512x1024 ![] bcast_S_S512x1024 main_cst_8
  let main_v26 : IVec S512x1024 1 := cmpf .olt main_v24 main_v25
  let main_c_9 : IVec S_ 1 := constantI S_ 1 1#1
  let main_v27 : IVec S_ 1 := (fun x v => Host.reduce IntOp.andi x v reducesTo_S512x1024_S_d0_1 h_S_) main_v26 main_c_9
  let main_v28 : IVec S_ 1 := andi main_v23 main_v27
  let main_v29 : FVec F S512 .f32 := Host.absf main_arg6
  let main_cst_10 : FVec F S_ .f32 := constant S_ .f32 0x7F800000#32
  let main_v30 : FVec F S512 .f32 := broadcastInDim S512 ![] bcast_S_S512 main_cst_10
  let main_v31 : IVec S512 1 := cmpf .olt main_v29 main_v30
  let main_c_11 : IVec S_ 1 := constantI S_ 1 1#1
  let main_v32 : IVec S_ 1 := (fun x v => Host.reduce IntOp.andi x v reducesTo_S512_S_d0 h_S_) main_v31 main_c_11
  let main_v33 : IVec S_ 1 := andi main_v28 main_v32
  fn_part2 (F := F) main_arg7 main_arg8 main_arg9 main_arg10 main_v33

def fn {F : FTy → Type} [FloatOps F] (main_arg0 : FVec F S16384x512 .f32) (main_arg1 : FVec F S16384x512 .f32) (main_arg2 : FVec F S16384x512 .f32) (main_arg3 : FVec F S512x1024 .f32) (main_arg4 : FVec F S512 .f32) (main_arg5 : FVec F S512x1024 .f32) (main_arg6 : FVec F S512 .f32) (main_arg7 : FVec F S512x1024 .f32) (main_arg8 : FVec F S512 .f32) (main_arg9 : FVec F S512x1024 .f32) (main_arg10 : FVec F S512 .f32) : IVec S_ 1 :=
  let main_v0 : FVec F S16384x512 .f32 := Host.absf main_arg0
  let main_cst : FVec F S_ .f32 := constant S_ .f32 0x7F800000#32
  let main_v1 : FVec F S16384x512 .f32 := broadcastInDim S16384x512 ![] bcast_S_S16384x512 main_cst
  let main_v2 : IVec S16384x512 1 := cmpf .olt main_v0 main_v1
  let main_c : IVec S_ 1 := constantI S_ 1 1#1
  let main_v3 : IVec S_ 1 := (fun x v => Host.reduce IntOp.andi x v reducesTo_S16384x512_S_d0_1 h_S_) main_v2 main_c
  let main_v4 : FVec F S16384x512 .f32 := Host.absf main_arg1
  let main_cst_0 : FVec F S_ .f32 := constant S_ .f32 0x7F800000#32
  let main_v5 : FVec F S16384x512 .f32 := broadcastInDim S16384x512 ![] bcast_S_S16384x512 main_cst_0
  let main_v6 : IVec S16384x512 1 := cmpf .olt main_v4 main_v5
  let main_c_1 : IVec S_ 1 := constantI S_ 1 1#1
  let main_v7 : IVec S_ 1 := (fun x v => Host.reduce IntOp.andi x v reducesTo_S16384x512_S_d0_1 h_S_) main_v6 main_c_1
  let main_v8 : IVec S_ 1 := andi main_v3 main_v7
  let main_v9 : FVec F S16384x512 .f32 := Host.absf main_arg2
  let main_cst_2 : FVec F S_ .f32 := constant S_ .f32 0x7F800000#32
  let main_v10 : FVec F S16384x512 .f32 := broadcastInDim S16384x512 ![] bcast_S_S16384x512 main_cst_2
  let main_v11 : IVec S16384x512 1 := cmpf .olt main_v9 main_v10
  let main_c_3 : IVec S_ 1 := constantI S_ 1 1#1
  let main_v12 : IVec S_ 1 := (fun x v => Host.reduce IntOp.andi x v reducesTo_S16384x512_S_d0_1 h_S_) main_v11 main_c_3
  let main_v13 : IVec S_ 1 := andi main_v8 main_v12
  let main_v14 : FVec F S512x1024 .f32 := Host.absf main_arg3
  let main_cst_4 : FVec F S_ .f32 := constant S_ .f32 0x7F800000#32
  let main_v15 : FVec F S512x1024 .f32 := broadcastInDim S512x1024 ![] bcast_S_S512x1024 main_cst_4
  let main_v16 : IVec S512x1024 1 := cmpf .olt main_v14 main_v15
  fn_part1 (F := F) main_arg4 main_arg5 main_arg6 main_arg7 main_arg8 main_arg9 main_arg10 main_v13 main_v16
-- ==== Kernel.lean ====
abbrev S16384x512 : Shape := ⟨2, ![16384, 512]⟩
abbrev S512x1024 : Shape := ⟨2, ![512, 1024]⟩
abbrev S512 : Shape := ⟨1, ![512]⟩
abbrev S2048x1024 : Shape := ⟨2, ![2048, 1024]⟩
abbrev S2048 : Shape := ⟨1, ![2048]⟩
abbrev S2048x512 : Shape := ⟨2, ![2048, 512]⟩
abbrev S512x2048 : Shape := ⟨2, ![512, 2048]⟩
abbrev S1x2048 : Shape := ⟨2, ![1, 2048]⟩
abbrev S512x512 : Shape := ⟨2, ![512, 512]⟩
abbrev S1x512 : Shape := ⟨2, ![1, 512]⟩

abbrev nBuf : Space → Nat
  | .hbm => 22
  | .vmem => 13
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S2048x1024, .f32⟩
  | .hbm, ⟨12, _⟩ => ⟨S2048, .f32⟩
  | .hbm, ⟨13, _⟩ => ⟨S2048x512, .f32⟩
  | .hbm, ⟨14, _⟩ => ⟨S512x2048, .f32⟩
  | .hbm, ⟨15, _⟩ => ⟨S512x2048, .bf16⟩
  | .hbm, ⟨16, _⟩ => ⟨S2048x512, .f32⟩
  | .hbm, ⟨17, _⟩ => ⟨S512x2048, .f32⟩
  | .hbm, ⟨18, _⟩ => ⟨S512x2048, .bf16⟩
  | .hbm, ⟨19, _⟩ => ⟨S1x2048, .f32⟩
  | .hbm, ⟨20, _⟩ => ⟨S16384x512, .f32⟩
  | .hbm, ⟨21, _⟩ => ⟨S16384x512, .f32⟩
  | .local _ .vmem, ⟨0, _⟩ => ⟨S512x512, .f32⟩
  | .local _ .vmem, ⟨1, _⟩ => ⟨S512x512, .f32⟩
  | .local _ .vmem, ⟨2, _⟩ => ⟨S512x512, .f32⟩
  | .local _ .vmem, ⟨3, _⟩ => ⟨S512x512, .f32⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S1x2048, .f32⟩
  | .local _ .vmem, ⟨9, _⟩ => ⟨S512x512, .f32⟩
  | .local _ .vmem, ⟨10, _⟩ => ⟨S512x512, .f32⟩
  | .local _ .vmem, ⟨11, _⟩ => ⟨S512x512, .f32⟩
  | .local _ .vmem, ⟨12, _⟩ => ⟨S512x512, .f32⟩
  | _, _ => ⟨S16384x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9_0 : Ref sig .tc := ⟨.hbm, 20, rfl⟩
abbrev main_v9_1 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  concatenates_S512x1024_S512x1024_S512x1024_S512x1024_S2048x1024_d0 : Shape.Concatenates [S512x1024, S512x1024, S512x1024, S512x1024] S2048x1024 0
  concatenates_S512_S512_S512_S512_S2048_d0 : Shape.Concatenates [S512, S512, S512, S512] S2048 0
  slices_S2048x1024_S2048x512_0_0 : S2048x1024.Slices ![0, 0] S2048x512
  transposes_S2048x512_S512x2048_1_0 : S2048x512.Transposes [1, 0] S512x2048
  bitsLt_bf16_f32 : FTy.bits .bf16 < FTy.bits .f32
  slices_S2048x1024_S2048x512_0_512 : S2048x1024.Slices ![0, 512] S2048x512
  shapeCasts_S2048_S1x2048 : S2048.ShapeCasts S1x2048
  inb_S512x512_S512x512_0_0 : ∀ a, (![0, 0] : Fin 2 → Nat) a + S512x512.size a ≤ S512x512.size a
  h_S512x512 : 0 < S512x512.numel
  inb_S512x2048_S512x512_0_0 : ∀ a, (![0, 0] : Fin 2 → Nat) a + S512x512.size a ≤ S512x2048.size a
  shapeCasts_S512x512_S512x512 : S512x512.ShapeCasts S512x512
  inb_S1x2048_S1x512_0_0 : ∀ a, (![0, 0] : Fin 2 → Nat) a + S1x512.size a ≤ S1x2048.size a
  h_S1x512 : 0 < S1x512.numel
  shapeCasts_S1x512_S1x512 : S1x512.ShapeCasts S1x512
  broadcasts_S1x512_S512x512 : S1x512.Broadcasts S512x512
  inb_S512x2048_S512x512_0_512 : ∀ a, (![0, 512] : Fin 2 → Nat) a + S512x512.size a ≤ S512x2048.size a
  inb_S1x2048_S1x512_0_512 : ∀ a, (![0, 512] : Fin 2 → Nat) a + S1x512.size a ≤ S1x2048.size a
  inb_S512x2048_S512x512_0_1024 : ∀ a, (![0, 1024] : Fin 2 → Nat) a + S512x512.size a ≤ S512x2048.size a
  inb_S1x2048_S1x512_0_1024 : ∀ a, (![0, 1024] : Fin 2 → Nat) a + S1x512.size a ≤ S1x2048.size a
  inb_S512x2048_S512x512_0_1536 : ∀ a, (![0, 1536] : Fin 2 → Nat) a + S512x512.size a ≤ S512x2048.size a
  inb_S1x2048_S1x512_0_1536 : ∀ a, (![0, 1536] : Fin 2 → Nat) a + S1x512.size a ≤ S1x2048.size a
  dot_S512x512_S512x512_S512x512_1_0_0_1_n_n_wf : DotDims.WF S512x512 S512x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x512.size a ≤ S16384x512.size a
  hwx0_0 : ∀ i : grid0.Coords, EltTy.bits .f32 = 32 ∨ (Rect.block (s := S16384x512) S512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x512.size a ≤ S16384x512.size a
  hwx0_1 : ∀ i : grid0.Coords, EltTy.bits .f32 = 32 ∨ (Rect.block (s := S16384x512) S512x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S16384x512.size a
  hwx0_2 : ∀ i : grid0.Coords, EltTy.bits .f32 = 32 ∨ (Rect.block (s := S16384x512) S512x512.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S512x2048.size a ≤ S512x2048.size a
  hwx0_3 : ∀ i : grid0.Coords, EltTy.bits .bf16 = 32 ∨ (Rect.block (s := S512x2048) S512x2048.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S512x2048.size a ≤ S512x2048.size a
  hwx0_4 : ∀ i : grid0.Coords, EltTy.bits .bf16 = 32 ∨ (Rect.block (s := S512x2048) S512x2048.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x2048.size a ≤ S1x2048.size a
  hwx0_5 : ∀ i : grid0.Coords, EltTy.bits .f32 = 32 ∨ (Rect.block (s := S1x2048) S1x2048.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x512.size a ≤ S16384x512.size a
  hwx0_6 : ∀ i : grid0.Coords, EltTy.bits .f32 = 32 ∨ (Rect.block (s := S16384x512) S512x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x512.size a ≤ S16384x512.size a
  hwx0_7 : ∀ i : grid0.Coords, EltTy.bits .f32 = 32 ∨ (Rect.block (s := S16384x512) S512x512.size (cc0_transform_7 i) (hinb0_7 i)).WholeWords (EltTy.packing .f32)

variable [Facts₀]

def dot_S512x512_S512x512_S512x512_1_0_0_1_n_n : DotDims S512x512 S512x512 S512x512 where
  lhsContracting := [1]
  rhsContracting := [0]
  lhsNonContracting := [0]
  rhsNonContracting := [1]
  lhsBatch := []
  rhsBatch := []
  wf := dot_S512x512_S512x512_S512x512_1_0_0_1_n_n_wf

abbrev win0_0 : Pipeline.Window sig grid0 :=
  Pipeline.Window.ofSpec (Memref.whole main_arg0) S512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S512x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S512x2048.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v7) S512x2048.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v8) S1x2048.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v9_0) S512x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v9_1) S512x512.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S16384x512 : Shape := ⟨2, ![16384, 512]⟩
abbrev S512x1024 : Shape := ⟨2, ![512, 1024]⟩
abbrev S512 : Shape := ⟨1, ![512]⟩
abbrev S16384x1024 : Shape := ⟨2, ![16384, 1024]⟩
abbrev S2048x1024 : Shape := ⟨2, ![2048, 1024]⟩
abbrev S2048 : Shape := ⟨1, ![2048]⟩
abbrev S1024x2048 : Shape := ⟨2, ![1024, 2048]⟩
abbrev S16384x2048 : Shape := ⟨2, ![16384, 2048]⟩
abbrev S1x2048 : Shape := ⟨2, ![1, 2048]⟩
abbrev S_ : Shape := ⟨0, ![]⟩

abbrev nBuf : Space → Nat
  | .hbm => 53
  | .vmem => 0
  | .smem => 0
  | _ => 0

abbrev bufTy : (tb : Table) → Fin (tcTables nBuf tb) → BufTy
  | .hbm, ⟨0, _⟩ => ⟨S16384x512, .f32⟩
  | .hbm, ⟨1, _⟩ => ⟨S16384x512, .f32⟩
  | .hbm, ⟨2, _⟩ => ⟨S16384x512, .f32⟩
  | .hbm, ⟨3, _⟩ => ⟨S512x1024, .f32⟩
  | .hbm, ⟨4, _⟩ => ⟨S512, .f32⟩
  | .hbm, ⟨5, _⟩ => ⟨S512x1024, .f32⟩
  | .hbm, ⟨6, _⟩ => ⟨S512, .f32⟩
  | .hbm, ⟨7, _⟩ => ⟨S512x1024, .f32⟩
  | .hbm, ⟨8, _⟩ => ⟨S512, .f32⟩
  | .hbm, ⟨9, _⟩ => ⟨S512x1024, .f32⟩
  | .hbm, ⟨10, _⟩ => ⟨S512, .f32⟩
  | .hbm, ⟨11, _⟩ => ⟨S16384x1024, .f32⟩
  | .hbm, ⟨12, _⟩ => ⟨S2048x1024, .f32⟩
  | .hbm, ⟨13, _⟩ => ⟨S2048, .f32⟩
  | .hbm, ⟨14, _⟩ => ⟨S1024x2048, .f32⟩
  | .hbm, ⟨15, _⟩ => ⟨S16384x2048, .f32⟩
  | .hbm, ⟨16, _⟩ => ⟨S1x2048, .f32⟩
  | .hbm, ⟨17, _⟩ => ⟨S16384x2048, .f32⟩
  | .hbm, ⟨18, _⟩ => ⟨S16384x2048, .f32⟩
  | .hbm, ⟨19, _⟩ => ⟨S16384x512, .f32⟩
  | .hbm, ⟨20, _⟩ => ⟨S16384x512, .f32⟩
  | .hbm, ⟨21, _⟩ => ⟨S16384x512, .f32⟩
  | .hbm, ⟨22, _⟩ => ⟨S_, .f32⟩
  | .hbm, ⟨23, _⟩ => ⟨S16384x512, .f32⟩
  | .hbm, ⟨24, _⟩ => ⟨S16384x512, .f32⟩
  | .hbm, ⟨25, _⟩ => ⟨S_, .f32⟩
  | .hbm, ⟨26, _⟩ => ⟨S16384x512, .f32⟩
  | .hbm, ⟨27, _⟩ => ⟨S16384x512, .f32⟩
  | .hbm, ⟨28, _⟩ => ⟨S16384x512, .f32⟩
  | .hbm, ⟨29, _⟩ => ⟨S16384x512, .f32⟩
  | .hbm, ⟨30, _⟩ => ⟨S16384x512, .f32⟩
  | .hbm, ⟨31, _⟩ => ⟨S_, .f32⟩
  | .hbm, ⟨32, _⟩ => ⟨S16384x512, .f32⟩
  | .hbm, ⟨33, _⟩ => ⟨S16384x512, .f32⟩
  | .hbm, ⟨34, _⟩ => ⟨S_, .f32⟩
  | .hbm, ⟨35, _⟩ => ⟨S16384x512, .f32⟩
  | .hbm, ⟨36, _⟩ => ⟨S16384x512, .f32⟩
  | .hbm, ⟨37, _⟩ => ⟨S16384x512, .f32⟩
  | .hbm, ⟨38, _⟩ => ⟨S16384x512, .f32⟩
  | .hbm, ⟨39, _⟩ => ⟨S16384x512, .f32⟩
  | .hbm, ⟨40, _⟩ => ⟨S16384x512, .f32⟩
  | .hbm, ⟨41, _⟩ => ⟨S16384x512, .f32⟩
  | .hbm, ⟨42, _⟩ => ⟨S_, .f32⟩
  | .hbm, ⟨43, _⟩ => ⟨S16384x512, .f32⟩
  | .hbm, ⟨44, _⟩ => ⟨S16384x512, .f32⟩
  | .hbm, ⟨45, _⟩ => ⟨S_, .f32⟩
  | .hbm, ⟨46, _⟩ => ⟨S16384x512, .f32⟩
  | .hbm, ⟨47, _⟩ => ⟨S16384x512, .f32⟩
  | .hbm, ⟨48, _⟩ => ⟨S16384x512, .f32⟩
  | .hbm, ⟨49, _⟩ => ⟨S16384x512, .f32⟩
  | .hbm, ⟨50, _⟩ => ⟨S16384x512, .f32⟩
  | .hbm, ⟨51, _⟩ => ⟨S16384x512, .f32⟩
  | .hbm, ⟨52, _⟩ => ⟨S16384x512, .f32⟩
  | _, _ => ⟨S16384x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst : Ref sig .tc := ⟨.hbm, 22, rfl⟩
abbrev main_v11 : Ref sig .tc := ⟨.hbm, 23, rfl⟩
abbrev main_v12 : Ref sig .tc := ⟨.hbm, 24, rfl⟩
abbrev main_cst_0 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_cst_1 : Ref sig .tc := ⟨.hbm, 31, rfl⟩
abbrev main_v18 : Ref sig .tc := ⟨.hbm, 32, rfl⟩
abbrev main_v19 : Ref sig .tc := ⟨.hbm, 33, rfl⟩
abbrev main_cst_2 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_v27 : Ref sig .tc := ⟨.hbm, 43, rfl⟩
abbrev main_v28 : Ref sig .tc := ⟨.hbm, 44, rfl⟩
abbrev main_cst_4 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩

abbrev nD : Nat := 1
abbrev τ : Topo := Topo.v7x

variable {F : FTy → Type} [FloatOps F]

class Facts₀ : Prop where
  concatenates_S16384x512_S16384x512_S16384x1024_d1 : Shape.Concatenates [S16384x512, S16384x512] S16384x1024 1
  concatenates_S512x1024_S512x1024_S512x1024_S512x1024_S2048x1024_d0 : Shape.Concatenates [S512x1024, S512x1024, S512x1024, S512x1024] S2048x1024 0
  concatenates_S512_S512_S512_S512_S2048_d0 : Shape.Concatenates [S512, S512, S512, S512] S2048 0
  transposes_S2048x1024_S1024x2048_1_0 : S2048x1024.Transposes [1, 0] S1024x2048
  bcast_S2048_S1x2048_1 : S2048.BroadcastsInDim S1x2048 (![1] : Fin 1 → Fin S1x2048.rank)
  bcast_S1x2048_S16384x2048_0_1 : S1x2048.BroadcastsInDim S16384x2048 (![0, 1] : Fin 2 → Fin S16384x2048.rank)
  slices_S16384x2048_S16384x512_0_0 : S16384x2048.Slices ![0, 0] S16384x512
  bcast_S_S16384x512 : S_.BroadcastsInDim S16384x512 (![] : Fin 0 → Fin S16384x512.rank)
  slices_S16384x2048_S16384x512_0_512 : S16384x2048.Slices ![0, 512] S16384x512
  slices_S16384x2048_S16384x512_0_1024 : S16384x2048.Slices ![0, 1024] S16384x512
  slices_S16384x2048_S16384x512_0_1536 : S16384x2048.Slices ![0, 1536] S16384x512
  dot_S16384x1024_S1024x2048_S16384x2048_1_0_0_1_n_n_wf : DotDims.WF S16384x1024 S1024x2048 S16384x2048 [1] [0] [0] [1] [] []

variable [Facts₀]

def dot_S16384x1024_S1024x2048_S16384x2048_1_0_0_1_n_n : DotDims S16384x1024 S1024x2048 S16384x2048 where
  lhsContracting := [1]
  rhsContracting := [0]
  lhsNonContracting := [0]
  rhsNonContracting := [1]
  lhsBatch := []
  rhsBatch := []
  wf := dot_S16384x1024_S1024x2048_S16384x2048_1_0_0_1_n_n_wf

class Facts : Prop extends Facts₀ where

variable [Facts]
-- ==== Proof.EntryBits.lean ====
/-
  The state in which `Kernel`'s one region is entered, and what a run of the region gives back of the arguments.

  Before the region @main runs nine host operations: the four weight matrices and the four bias vectors are stacked
  (two concatenations along axis 0), the stacked matrix is cut into its left and right halves of 512 columns, each half is
  transposed and narrowed, and the stacked bias is reshaped to one row. None of them writes an argument array, so the
  region finds every argument as it was launched. Each window's block at a grid point is read off those arrays; an input
  window's staging buffer holds that block at every point, whether the point fetches it or not (the three resident
  windows are fetched at the first point only and their index never moves).
-/
import proofs.«149311_j39015482916921_2_alg».proof.Proof.Gen.Kernel.Launch
import proofs.«149311_j39015482916921_2_alg».proof.Proof.Gen.Kernel.Skeleton
import proofs.«149311_j39015482916921_2_alg».proof.Proof.Gen.Kernel.Points
import Idealize.ShloMosaic.Lib.Pipeline.FrameBody
import Idealize.ShloMosaic.Lib.Ring
import Idealize.ShloMosaic.Lib.Tactic

set_option maxRecDepth 16384

noncomputable section

namespace Cert.Kernel.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

variable (m : (ℓ : Loc nD τ sig) → Buf (Elt F) ℓ) (ρ : Dev nD → PrngReg)

/-! ## The arrays when the region is entered -/

/-- Core `c`'s buffers after the nine host operations that precede the region. -/
abbrev V (c : Dev nD) (b : Ref sig .tc) : Buf (Elt F) ((c : Thread nD τ).loc b) :=
  StableHlo.after hostOps0 (fun b => m (c, b)) b

/-- None of the nine operations allocates. -/
theorem hostOps0_fresh : (hostOps0 : List (HloOp τ sig (Elt F))).Forall fun op => op.fresh = ∅ := by
  simp only [List.Forall]; repeat' constructor

/-- @main is the nine host operations followed by the region, so the region is entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the nine results `main_v0 … main_v8` is found as launched. -/
theorem V_unwritten (c : Dev nD) (b : Ref sig .tc)
    (h0 : b ≠ main_v0) (h1 : b ≠ main_v1) (h2 : b ≠ main_v2) (h3 : b ≠ main_v3) (h4 : b ≠ main_v4)
    (h5 : b ≠ main_v5) (h6 : b ≠ main_v6) (h7 : b ≠ main_v7) (h8 : b ≠ main_v8) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

theorem V_main_arg0 (c : Dev nD) : V m c main_arg0 = m ((c : Thread nD τ).loc main_arg0) :=
  V_unwritten m c main_arg0 (by decide) (by decide) (by decide) (by decide) (by decide) (by decide) (by decide) (by decide) (by decide)
theorem V_main_arg1 (c : Dev nD) : V m c main_arg1 = m ((c : Thread nD τ).loc main_arg1) :=
  V_unwritten m c main_arg1 (by decide) (by decide) (by decide) (by decide) (by decide) (by decide) (by decide) (by decide) (by decide)
theorem V_main_arg2 (c : Dev nD) : V m c main_arg2 = m ((c : Thread nD τ).loc main_arg2) :=
  V_unwritten m c main_arg2 (by decide) (by decide) (by decide) (by decide) (by decide) (by decide) (by decide) (by decide) (by decide)
theorem V_main_arg3 (c : Dev nD) : V m c main_arg3 = m ((c : Thread nD τ).loc main_arg3) :=
  V_unwritten m c main_arg3 (by decide) (by decide) (by decide) (by decide) (by decide) (by decide) (by decide) (by decide) (by decide)
theorem V_main_arg4 (c : Dev nD) : V m c main_arg4 = m ((c : Thread nD τ).loc main_arg4) :=
  V_unwritten m c main_arg4 (by decide) (by decide) (by decide) (by decide) (by decide) (by decide) (by decide) (by decide) (by decide)
theorem V_main_arg5 (c : Dev nD) : V m c main_arg5 = m ((c : Thread nD τ).loc main_arg5) :=
  V_unwritten m c main_arg5 (by decide) (by decide) (by decide) (by decide) (by decide) (by decide) (by decide) (by decide) (by decide)
theorem V_main_arg6 (c : Dev nD) : V m c main_arg6 = m ((c : Thread nD τ).loc main_arg6) :=
  V_unwritten m c main_arg6 (by decide) (by decide) (by decide) (by decide) (by decide) (by decide) (by decide) (by decide) (by decide)
theorem V_main_arg7 (c : Dev nD) : V m c main_arg7 = m ((c : Thread nD τ).loc main_arg7) :=
  V_unwritten m c main_arg7 (by decide) (by decide) (by decide) (by decide) (by decide) (by decide) (by decide) (by decide) (by decide)
theorem V_main_arg8 (c : Dev nD) : V m c main_arg8 = m ((c : Thread nD τ).loc main_arg8) :=
  V_unwritten m c main_arg8 (by decide) (by decide) (by decide) (by decide) (by decide) (by decide) (by decide) (by decide) (by decide)
theorem V_main_arg9 (c : Dev nD) : V m c main_arg9 = m ((c : Thread nD τ).loc main_arg9) :=
  V_unwritten m c main_arg9 (by decide) (by decide) (by decide) (by decide) (by decide) (by decide) (by decide) (by decide) (by decide)
theorem V_main_arg10 (c : Dev nD) : V m c main_arg10 = m ((c : Thread nD τ).loc main_arg10) :=
  V_unwritten m c main_arg10 (by decide) (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Input window 0's staging buffer holds its block at every point, for any proof data over `V` whose body leaves the block in place. -/
theorem before0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
/-- Input window 1's staging buffer holds its block at every point, for any proof data over `V` whose body leaves the block in place. -/
theorem before1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
/-- Input window 2's staging buffer holds its block at every point, for any proof data over `V` whose body leaves the block in place. -/
theorem before2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
/-- Input window 3's staging buffer holds its block at every point, for any proof data over `V` whose body leaves the block in place. -/
theorem before3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
/-- Input window 4's staging buffer holds its block at every point, for any proof data over `V` whose body leaves the block in place. -/
theorem before4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
      (fun t => by rw [hafter]; unfold Dat.blockOf iblk; rw [hA]; try rfl) t d).trans
    (by unfold Dat.fetched Dat.blockOf iblk; rw [hA]; try rfl)
/-- Input window 5's staging buffer holds its block at every point, for any proof data over `V` whose body leaves the block in place. -/
theorem before5_of {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
      (fun t => by rw [hafter]; unfold Dat.blockOf iblk; rw [hA]; try rfl) t d).trans
    (by unfold Dat.fetched Dat.blockOf iblk; rw [hA]; try rfl)

/-! ## The arguments after a run of the region -/

/-- From a run of @main to the pipeline library's frame post, over proof data whose arrays are `V`'s: every argument
    array ends as launched. The three streamed inputs are windows' arrays and are read back through the proof data;
    the eight parameter arrays bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

end Cert.Kernel.Entry

end
-- ==== Proof.BodyBits.lean ====
/-
  One call of `Kernel`'s kernel body, on whole staging buffers.

  The body reads the two activation blocks x (input) and h (previous hidden state), the previous cell state c, and, gate
  by gate (forget, input, candidate, output), a 512-column panel of each resident weight matrix and of the bias row. It
  forms gate g as x · Wi[:, g] + h · Wh[:, g] + b[g], then c' = σ(f) ∗ c + σ(i) ∗ tanh(ĉ) and h' = σ(o) ∗ tanh(c'),
  and stores h' and c' over the whole of the two output buffers. Each output buffer therefore ends as ONE store's
  payload, a function of the six input blocks alone; what the output buffers held before is loaded but never used.
-/
import proofs.«149311_j39015482916921_2_alg».proof.Proof.EntryBits

set_option maxRecDepth 16384

noncomputable section

namespace Cert.Kernel.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! ## The rectangles the body reads and writes through -/

/-- The whole of a 512 × 512 block. -/
abbrev rAll : Rect S512x512 := Rect.unit (s := S512x512) ![0, 0] S512x512.size inb_S512x512_S512x512_0_0
/-- Gate g's panel of a resident weight matrix: all 512 rows, columns 512·g … 512·g + 511. -/
abbrev rW0 : Rect S512x2048 := Rect.unit (s := S512x2048) ![0, 0] S512x512.size inb_S512x2048_S512x512_0_0
abbrev rW1 : Rect S512x2048 := Rect.unit (s := S512x2048) ![0, 512] S512x512.size inb_S512x2048_S512x512_0_512
abbrev rW2 : Rect S512x2048 := Rect.unit (s := S512x2048) ![0, 1024] S512x512.size inb_S512x2048_S512x512_0_1024
abbrev rW3 : Rect S512x2048 := Rect.unit (s := S512x2048) ![0, 1536] S512x512.size inb_S512x2048_S512x512_0_1536
/-- Gate g's stretch of the bias row. -/
abbrev rB0 : Rect S1x2048 := Rect.unit (s := S1x2048) ![0, 0] S1x512.size inb_S1x2048_S1x512_0_0
abbrev rB1 : Rect S1x2048 := Rect.unit (s := S1x2048) ![0, 512] S1x512.size inb_S1x2048_S1x512_0_512
abbrev rB2 : Rect S1x2048 := Rect.unit (s := S1x2048) ![0, 1024] S1x512.size inb_S1x2048_S1x512_0_1024
abbrev rB3 : Rect S1x2048 := Rect.unit (s := S1x2048) ![0, 1536] S1x512.size inb_S1x2048_S1x512_0_1536

/-! ## What the body leaves in the two output buffers -/

/-- The new cell state c', as the body computes it from the six input blocks. -/
def cellPay (x h cp : Vec F S512x512 .f32) (wi wh : Vec F S512x2048 .bf16) (b : Vec F S1x2048 .f32) : FVec F S512x512 .f32 :=
  k0_pay1 (k0_pay3 (View.ld x rAll)) (k0_pay4 (View.ld h rAll)) (View.ld cp rAll)
    (k0_pay5 (View.ld x rAll) (View.ld h rAll) (View.ld wi rW0) (View.ld wh rW0) (View.ld b rB0))
    (k0_pay6 (View.ld x rAll) (View.ld h rAll) (View.ld wi rW1) (View.ld wh rW1) (View.ld b rB1))
    (k0_pay7 (View.ld wi rW2)) (k0_pay8 (View.ld wh rW2)) (View.ld b rB2)

/-- The new hidden state h'. -/
def hidPay (x h cp : Vec F S512x512 .f32) (wi wh : Vec F S512x2048 .bf16) (b : Vec F S1x2048 .f32) : FVec F S512x512 .f32 :=
  k0_pay2 (k0_pay3 (View.ld x rAll)) (k0_pay4 (View.ld h rAll)) (View.ld cp rAll)
    (k0_pay5 (View.ld x rAll) (View.ld h rAll) (View.ld wi rW0) (View.ld wh rW0) (View.ld b rB0))
    (k0_pay6 (View.ld x rAll) (View.ld h rAll) (View.ld wi rW1) (View.ld wh rW1) (View.ld b rB1))
    (k0_pay7 (View.ld wi rW2)) (k0_pay8 (View.ld wh rW2)) (View.ld b rB2)
    (View.ld wi rW3) (View.ld wh rW3) (View.ld b rB3)

/-- Window 6's buffer (h') after the body: its one store, over the whole buffer. -/
def out6 (x h cp : Vec F S512x512 .f32) (wi wh : Vec F S512x2048 .bf16) (b : Vec F S1x2048 .f32) : Vec F S512x512 .f32 :=
  View.canon [⟨rAll, hidPay x h cp wi wh b⟩]

/-- Window 7's buffer (c') after the body. -/
def out7 (x h cp : Vec F S512x512 .f32) (wi wh : Vec F S512x2048 .bf16) (b : Vec F S1x2048 .f32) : Vec F S512x512 .f32 :=
  View.canon [⟨rAll, cellPay x h cp wi wh b⟩]

/-- One store through the whole-buffer rectangle covers the buffer. -/
theorem cover_all (p0 : Vec F S512x512 .f32) (y : S512x512.Idx) :
    ∃ pc ∈ ([⟨rAll, p0⟩] : List (View.Piece (Elt F) S512x512 .f32)), y ∈ pc.1.set :=
  View.cover_of_tiled [⟨rAll, p0⟩] S512x512.size (by rfl) y

/-! ## The body's triple -/

set_option maxHeartbeats 1000000 in
/-- The body, called on whole staging buffers with the six inputs at `x h cp wi wh b` and the two outputs at anything,
    runs to the continuation with the inputs as they were and the outputs at `out6`, `out7` of the inputs. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S512x512 .f32) (harg7 : arg7.IsWhole) (arg8 : Memref sig .tc .vmem S512x512 .f32) (harg8 : arg8.IsWhole)
    (x h cp : Vec F S512x512 .f32) (wi wh : Vec F S512x2048 .bf16) (b : Vec F S1x2048 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wi ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wi ∗ owns (c : Thread nD τ) arg5 fullShare wh ∗ owns (c : Thread nD τ) arg6 fullShare b
            ∗ owns (c : Thread nD τ) arg7 fullShare (out6 x h cp wi wh b) ∗ owns (c : Thread nD τ) arg8 fullShare (out7 x h cp wi wh b)) -∗ K ⟨⟩))
      ⊢ wp frame (wpE (defs₀ (F := F)) Variants.none c none) E
          (cc0_lstm_kernel i arg1 harg1 arg2 harg2 arg3 harg3 arg4 harg4 arg5 harg5 arg6 harg6 arg7 harg7 arg8 harg8) K := by
  simp only [cc0_lstm_kernel_eq_skeleton]; unfold cc0_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_all _)
  iexists _; isplitr
  swap; · iexact H7
  ipureintro
  try dsimp only
  exact View.read_writes_eq_canon _ _ _ (cover_all _)

end Cert.Kernel.Body

end
-- ==== Proof.RunBits.lean ====
/-
  The region's run for `Kernel`: the proof data of its one pipeline, the body obligation at every grid point, and the
  run of @main to the pipeline library's frame post.

  The grid has 32 points along the batch axis. At point t the three streamed inputs are staged at rows 512·t … 512·t + 511
  of their arrays, the three resident operands are whole in their buffers, and the body overwrites both output buffers,
  which are written back to the same rows of the two result arrays. After the body each input buffer still holds its
  block, and each output buffer holds the body's function of the six input blocks.
-/
import proofs.«149311_j39015482916921_2_alg».proof.Proof.BodyBits

set_option maxRecDepth 16384

noncomputable section

namespace Cert.Kernel.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen Cert.Kernel.Entry Cert.Kernel.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`: the arrays as the region finds them; after the body at point `t` every
    input buffer at its block and the two output buffers at the body's function of the six input blocks; the invariant
    the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault, every array of the pipeline ending at what the
    proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.Kernel.Run

end
-- ==== Proof.EntryIdeal.lean ====
/-
  The state in which `KernelIdeal`'s one region is entered, and what a run of the region gives back of the arguments.

  Before the region @main runs nine host operations: the four weight matrices and the four bias vectors are stacked
  (two concatenations along axis 0), the stacked matrix is cut into its left and right halves of 512 columns, each half is
  transposed and narrowed, and the stacked bias is reshaped to one row. None of them writes an argument array, so the
  region finds every argument as it was launched. Each window's block at a grid point is read off those arrays; an input
  window's staging buffer holds that block at every point, whether the point fetches it or not (the three resident
  windows are fetched at the first point only and their index never moves).
-/
import proofs.«149311_j39015482916921_2_alg».proof.Proof.Gen.KernelIdeal.Launch
import proofs.«149311_j39015482916921_2_alg».proof.Proof.Gen.KernelIdeal.Skeleton
import proofs.«149311_j39015482916921_2_alg».proof.Proof.Gen.KernelIdeal.Points
import Idealize.ShloMosaic.Lib.Pipeline.FrameBody
import Idealize.ShloMosaic.Lib.Ring
import Idealize.ShloMosaic.Lib.Tactic

set_option maxRecDepth 16384

noncomputable section

namespace Cert.KernelIdeal.Entry

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

variable (m : (ℓ : Loc nD τ sig) → Buf (Elt F) ℓ) (ρ : Dev nD → PrngReg)

/-! ## The arrays when the region is entered -/

/-- Core `c`'s buffers after the nine host operations that precede the region. -/
abbrev V (c : Dev nD) (b : Ref sig .tc) : Buf (Elt F) ((c : Thread nD τ).loc b) :=
  StableHlo.after hostOps0 (fun b => m (c, b)) b

/-- None of the nine operations allocates. -/
theorem hostOps0_fresh : (hostOps0 : List (HloOp τ sig (Elt F))).Forall fun op => op.fresh = ∅ := by
  simp only [List.Forall]; repeat' constructor

/-- @main is the nine host operations followed by the region, so the region is entered at `V`. -/
theorem hmain (𝒱₀ : Variants) :
    Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- A buffer that is none of the nine results `main_v0 … main_v8` is found as launched. -/
theorem V_unwritten (c : Dev nD) (b : Ref sig .tc)
    (h0 : b ≠ main_v0) (h1 : b ≠ main_v1) (h2 : b ≠ main_v2) (h3 : b ≠ main_v3) (h4 : b ≠ main_v4)
    (h5 : b ≠ main_v5) (h6 : b ≠ main_v6) (h7 : b ≠ main_v7) (h8 : b ≠ main_v8) :
    V m c b = m ((c : Thread nD τ).loc b) :=
  StableHlo.after_of_forall_not_mem (b := Proc.devRef .tc b) _ _ (List.forall_iff_forall_mem.mp (by
    simp only [hostOps0, List.Forall, StableHlo.nary_writes, StableHlo.unary_writes, StableHlo.reshape_writes,
      Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5,
      StableHlo.devRef_ne_of_ne h6, StableHlo.devRef_ne_of_ne h7, StableHlo.devRef_ne_of_ne h8⟩))

theorem V_main_arg0 (c : Dev nD) : V m c main_arg0 = m ((c : Thread nD τ).loc main_arg0) :=
  V_unwritten m c main_arg0 (by decide) (by decide) (by decide) (by decide) (by decide) (by decide) (by decide) (by decide) (by decide)
theorem V_main_arg1 (c : Dev nD) : V m c main_arg1 = m ((c : Thread nD τ).loc main_arg1) :=
  V_unwritten m c main_arg1 (by decide) (by decide) (by decide) (by decide) (by decide) (by decide) (by decide) (by decide) (by decide)
theorem V_main_arg2 (c : Dev nD) : V m c main_arg2 = m ((c : Thread nD τ).loc main_arg2) :=
  V_unwritten m c main_arg2 (by decide) (by decide) (by decide) (by decide) (by decide) (by decide) (by decide) (by decide) (by decide)
theorem V_main_arg3 (c : Dev nD) : V m c main_arg3 = m ((c : Thread nD τ).loc main_arg3) :=
  V_unwritten m c main_arg3 (by decide) (by decide) (by decide) (by decide) (by decide) (by decide) (by decide) (by decide) (by decide)
theorem V_main_arg4 (c : Dev nD) : V m c main_arg4 = m ((c : Thread nD τ).loc main_arg4) :=
  V_unwritten m c main_arg4 (by decide) (by decide) (by decide) (by decide) (by decide) (by decide) (by decide) (by decide) (by decide)
theorem V_main_arg5 (c : Dev nD) : V m c main_arg5 = m ((c : Thread nD τ).loc main_arg5) :=
  V_unwritten m c main_arg5 (by decide) (by decide) (by decide) (by decide) (by decide) (by decide) (by decide) (by decide) (by decide)
theorem V_main_arg6 (c : Dev nD) : V m c main_arg6 = m ((c : Thread nD τ).loc main_arg6) :=
  V_unwritten m c main_arg6 (by decide) (by decide) (by decide) (by decide) (by decide) (by decide) (by decide) (by decide) (by decide)
theorem V_main_arg7 (c : Dev nD) : V m c main_arg7 = m ((c : Thread nD τ).loc main_arg7) :=
  V_unwritten m c main_arg7 (by decide) (by decide) (by decide) (by decide) (by decide) (by decide) (by decide) (by decide) (by decide)
theorem V_main_arg8 (c : Dev nD) : V m c main_arg8 = m ((c : Thread nD τ).loc main_arg8) :=
  V_unwritten m c main_arg8 (by decide) (by decide) (by decide) (by decide) (by decide) (by decide) (by decide) (by decide) (by decide)
theorem V_main_arg9 (c : Dev nD) : V m c main_arg9 = m ((c : Thread nD τ).loc main_arg9) :=
  V_unwritten m c main_arg9 (by decide) (by decide) (by decide) (by decide) (by decide) (by decide) (by decide) (by decide) (by decide)
theorem V_main_arg10 (c : Dev nD) : V m c main_arg10 = m ((c : Thread nD τ).loc main_arg10) :=
  V_unwritten m c main_arg10 (by decide) (by decide) (by decide) (by decide) (by decide) (by decide) (by decide) (by decide) (by decide)

/-! ## The windows' blocks -/

/-- Window `w`'s block at point `t`, read off its array as the region finds it. -/
def iblk (c : Dev nD) (w : Fin cfg0.W) (t : Fin cfg0.N) :
    ((cfg0.win w).xblock (cfg0.grid.coords t)).Idx → Elt F (cfg0.win w).elt :=
  ((cfg0.win w).blk t).view.read (Elt F) (V m c (Pipeline.arrRef spec0 w))

/-- Input window 0's staging buffer holds its block at every point, for any proof data over `V` whose body leaves the block in place. -/
theorem before0_of {c : Dev nD} (dat : Dat τ (Elt F) Unit ℕ (UR sig nD τ) ℕ cfg0 c)
    (hA : dat.A 0 = V m c (Pipeline.arrRef spec0 0)) (hafter : ∀ t, dat.after 0 t = iblk m c 0 t)
    (t : Fin cfg0.N) (d) : dat.before 0 t d = iblk m c 0 t :=
  (dat.before_in_eq_fetched 0 rfl (fun _ => rfl) (fun _ _ _ => rfl)
      (fun t => by rw [hafter]; unfold Dat.blockOf iblk; rw [hA]; try rfl) t d).trans
    (by unfold Dat.fetched Dat.blockOf iblk; rw [hA]; try rfl)
/-- Input window 1's staging buffer holds its block at every point, for any proof data over `V` whose body leaves the block in place. -/
theorem before1_of {c : Dev nD} (dat : Dat τ (Elt F) Unit ℕ (UR sig nD τ) ℕ cfg0 c)
    (hA : dat.A 1 = V m c (Pipeline.arrRef spec0 1)) (hafter : ∀ t, dat.after 1 t = iblk m c 1 t)
    (t : Fin cfg0.N) (d) : dat.before 1 t d = iblk m c 1 t :=
  (dat.before_in_eq_fetched 1 rfl (fun _ => rfl) (fun _ _ _ => rfl)
      (fun t => by rw [hafter]; unfold Dat.blockOf iblk; rw [hA]; try rfl) t d).trans
    (by unfold Dat.fetched Dat.blockOf iblk; rw [hA]; try rfl)
/-- Input window 2's staging buffer holds its block at every point, for any proof data over `V` whose body leaves the block in place. -/
theorem before2_of {c : Dev nD} (dat : Dat τ (Elt F) Unit ℕ (UR sig nD τ) ℕ cfg0 c)
    (hA : dat.A 2 = V m c (Pipeline.arrRef spec0 2)) (hafter : ∀ t, dat.after 2 t = iblk m c 2 t)
    (t : Fin cfg0.N) (d) : dat.before 2 t d = iblk m c 2 t :=
  (dat.before_in_eq_fetched 2 rfl (fun _ => rfl) (fun _ _ _ => rfl)
      (fun t => by rw [hafter]; unfold Dat.blockOf iblk; rw [hA]; try rfl) t d).trans
    (by unfold Dat.fetched Dat.blockOf iblk; rw [hA]; try rfl)
/-- Input window 3's staging buffer holds its block at every point, for any proof data over `V` whose body leaves the block in place. -/
theorem before3_of {c : Dev nD} (dat : Dat τ (Elt F) Unit ℕ (UR sig nD τ) ℕ cfg0 c)
    (hA : dat.A 3 = V m c (Pipeline.arrRef spec0 3)) (hafter : ∀ t, dat.after 3 t = iblk m c 3 t)
    (t : Fin cfg0.N) (d) : dat.before 3 t d = iblk m c 3 t :=
  (dat.before_in_eq_fetched 3 rfl (fun _ => rfl) (fun _ _ _ => rfl)
      (fun t => by rw [hafter]; unfold Dat.blockOf iblk; rw [hA]; try rfl) t d).trans
    (by unfold Dat.fetched Dat.blockOf iblk; rw [hA]; try rfl)
/-- Input window 4's staging buffer holds its block at every point, for any proof data over `V` whose body leaves the block in place. -/
theorem before4_of {c : Dev nD} (dat : Dat τ (Elt F) Unit ℕ (UR sig nD τ) ℕ cfg0 c)
    (hA : dat.A 4 = V m c (Pipeline.arrRef spec0 4)) (hafter : ∀ t, dat.after 4 t = iblk m c 4 t)
    (t : Fin cfg0.N) (d) : dat.before 4 t d = iblk m c 4 t :=
  (dat.before_in_eq_fetched 4 rfl (fun _ => rfl) (fun _ _ _ => rfl)
      (fun t => by rw [hafter]; unfold Dat.blockOf iblk; rw [hA]; try rfl) t d).trans
    (by unfold Dat.fetched Dat.blockOf iblk; rw [hA]; try rfl)
/-- Input window 5's staging buffer holds its block at every point, for any proof data over `V` whose body leaves the block in place. -/
theorem before5_of {c : Dev nD} (dat : Dat τ (Elt F) Unit ℕ (UR sig nD τ) ℕ cfg0 c)
    (hA : dat.A 5 = V m c (Pipeline.arrRef spec0 5)) (hafter : ∀ t, dat.after 5 t = iblk m c 5 t)
    (t : Fin cfg0.N) (d) : dat.before 5 t d = iblk m c 5 t :=
  (dat.before_in_eq_fetched 5 rfl (fun _ => rfl) (fun _ _ _ => rfl)
      (fun t => by rw [hafter]; unfold Dat.blockOf iblk; rw [hA]; try rfl) t d).trans
    (by unfold Dat.fetched Dat.blockOf iblk; rw [hA]; try rfl)

/-! ## The arguments after a run of the region -/

/-- From a run of @main to the pipeline library's frame post, over proof data whose arrays are `V`'s: every argument
    array ends as launched. The three streamed inputs are windows' arrays and are read back through the proof data;
    the eight parameter arrays bypass the region. -/
theorem frame_of (dats : (p : Fin 1) → (c : Dev nD) → Dat τ (Elt F) Unit ℕ (UR sig nD τ) ℕ (cfgs p) c)
    (hA : ∀ c w, (dats 0 c).A w = V m c (Pipeline.arrRef spec0 w))
    (h : θ_run defs (onTc (τ := τ) (main (F := F))) (s₀ m ρ) (Pipeline.FramePost cfgs dats 0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  (θ_run defs _ _).mono (fun _ h c => ⟨
      ((h c).1 0).trans (((dats 0 c).arrAt_in 0 rfl _).trans ((hA c 0).trans (V_main_arg0 m c))),
      ((h c).1 1).trans (((dats 0 c).arrAt_in 1 rfl _).trans ((hA c 1).trans (V_main_arg1 m c))),
      ((h c).1 2).trans (((dats 0 c).arrAt_in 2 rfl _).trans ((hA c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩) h

end Cert.KernelIdeal.Entry

end
-- ==== Proof.BodyIdeal.lean ====
/-
  One call of `KernelIdeal`'s kernel body, on whole staging buffers.

  The body reads the two activation blocks x (input) and h (previous hidden state), the previous cell state c, and, gate
  by gate (forget, input, candidate, output), a 512-column panel of each resident weight matrix and of the bias row. It
  forms gate g as x · Wi[:, g] + h · Wh[:, g] + b[g], then c' = σ(f) ∗ c + σ(i) ∗ tanh(ĉ) and h' = σ(o) ∗ tanh(c'),
  and stores h' and c' over the whole of the two output buffers. Each output buffer therefore ends as ONE store's
  payload, a function of the six input blocks alone; what the output buffers held before is loaded but never used.
-/
import proofs.«149311_j39015482916921_2_alg».proof.Proof.EntryIdeal

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! ## The rectangles the body reads and writes through -/

/-- The whole of a 512 × 512 block. -/
abbrev rAll : Rect S512x512 := Rect.unit (s := S512x512) ![0, 0] S512x512.size inb_S512x512_S512x512_0_0
/-- Gate g's panel of a resident weight matrix: all 512 rows, columns 512·g … 512·g + 511. -/
abbrev rW0 : Rect S512x2048 := Rect.unit (s := S512x2048) ![0, 0] S512x512.size inb_S512x2048_S512x512_0_0
abbrev rW1 : Rect S512x2048 := Rect.unit (s := S512x2048) ![0, 512] S512x512.size inb_S512x2048_S512x512_0_512
abbrev rW2 : Rect S512x2048 := Rect.unit (s := S512x2048) ![0, 1024] S512x512.size inb_S512x2048_S512x512_0_1024
abbrev rW3 : Rect S512x2048 := Rect.unit (s := S512x2048) ![0, 1536] S512x512.size inb_S512x2048_S512x512_0_1536
/-- Gate g's stretch of the bias row. -/
abbrev rB0 : Rect S1x2048 := Rect.unit (s := S1x2048) ![0, 0] S1x512.size inb_S1x2048_S1x512_0_0
abbrev rB1 : Rect S1x2048 := Rect.unit (s := S1x2048) ![0, 512] S1x512.size inb_S1x2048_S1x512_0_512
abbrev rB2 : Rect S1x2048 := Rect.unit (s := S1x2048) ![0, 1024] S1x512.size inb_S1x2048_S1x512_0_1024
abbrev rB3 : Rect S1x2048 := Rect.unit (s := S1x2048) ![0, 1536] S1x512.size inb_S1x2048_S1x512_0_1536

/-! ## What the body leaves in the two output buffers -/

/-- The new cell state c', as the body computes it from the six input blocks. -/
def cellPay (x h cp : Vec F S512x512 .f32) (wi wh : Vec F S512x2048 .bf16) (b : Vec F S1x2048 .f32) : FVec F S512x512 .f32 :=
  k0_pay1 (k0_pay3 (View.ld x rAll)) (k0_pay4 (View.ld h rAll)) (View.ld cp rAll)
    (k0_pay5 (View.ld x rAll) (View.ld h rAll) (View.ld wi rW0) (View.ld wh rW0) (View.ld b rB0))
    (k0_pay6 (View.ld x rAll) (View.ld h rAll) (View.ld wi rW1) (View.ld wh rW1) (View.ld b rB1))
    (k0_pay7 (View.ld wi rW2)) (k0_pay8 (View.ld wh rW2)) (View.ld b rB2)

/-- The new hidden state h'. -/
def hidPay (x h cp : Vec F S512x512 .f32) (wi wh : Vec F S512x2048 .bf16) (b : Vec F S1x2048 .f32) : FVec F S512x512 .f32 :=
  k0_pay2 (k0_pay3 (View.ld x rAll)) (k0_pay4 (View.ld h rAll)) (View.ld cp rAll)
    (k0_pay5 (View.ld x rAll) (View.ld h rAll) (View.ld wi rW0) (View.ld wh rW0) (View.ld b rB0))
    (k0_pay6 (View.ld x rAll) (View.ld h rAll) (View.ld wi rW1) (View.ld wh rW1) (View.ld b rB1))
    (k0_pay7 (View.ld wi rW2)) (k0_pay8 (View.ld wh rW2)) (View.ld b rB2)
    (View.ld wi rW3) (View.ld wh rW3) (View.ld b rB3)

/-- Window 6's buffer (h') after the body: its one store, over the whole buffer. -/
def out6 (x h cp : Vec F S512x512 .f32) (wi wh : Vec F S512x2048 .bf16) (b : Vec F S1x2048 .f32) : Vec F S512x512 .f32 :=
  View.canon [⟨rAll, hidPay x h cp wi wh b⟩]

/-- Window 7's buffer (c') after the body. -/
def out7 (x h cp : Vec F S512x512 .f32) (wi wh : Vec F S512x2048 .bf16) (b : Vec F S1x2048 .f32) : Vec F S512x512 .f32 :=
  View.canon [⟨rAll, cellPay x h cp wi wh b⟩]

/-- One store through the whole-buffer rectangle covers the buffer. -/
theorem cover_all (p0 : Vec F S512x512 .f32) (y : S512x512.Idx) :
    ∃ pc ∈ ([⟨rAll, p0⟩] : List (View.Piece (Elt F) S512x512 .f32)), y ∈ pc.1.set :=
  View.cover_of_tiled [⟨rAll, p0⟩] S512x512.size (by rfl) y

/-! ## The body's triple -/

set_option maxHeartbeats 1000000 in
/-- The body, called on whole staging buffers with the six inputs at `x h cp wi wh b` and the two outputs at anything,
    runs to the continuation with the inputs as they were and the outputs at `out6`, `out7` of the inputs. -/
theorem sound_kernel (c : Dev nD) (E : Set ℕ) (i : grid0.Coords)
    (arg1 : Memref sig .tc .vmem S512x512 .f32) (harg1 : arg1.IsWhole) (arg2 : Memref sig .tc .vmem S512x512 .f32) (harg2 : arg2.IsWhole)
    (arg3 : Memref sig .tc .vmem S512x512 .f32) (harg3 : arg3.IsWhole) (arg4 : Memref sig .tc .vmem S512x2048 .bf16) (harg4 : arg4.IsWhole)
    (arg5 : Memref sig .tc .vmem S512x2048 .bf16) (harg5 : arg5.IsWhole) (arg6 : Memref sig .tc .vmem S1x2048 .f32) (harg6 : arg6.IsWhole)
    (arg7 : Memref sig .tc .vmem S512x512 .f32) (harg7 : arg7.IsWhole) (arg8 : Memref sig .tc .vmem S512x512 .f32) (harg8 : arg8.IsWhole)
    (x h cp : Vec F S512x512 .f32) (wi wh : Vec F S512x2048 .bf16) (b : Vec F S1x2048 .f32) (K : PUnit → sProp 𝕄) :
    iprop(owns (c : Thread nD τ) arg1 fullShare x ∗ owns (c : Thread nD τ) arg2 fullShare h ∗ owns (c : Thread nD τ) arg3 fullShare cp
        ∗ owns (c : Thread nD τ) arg4 fullShare wi ∗ owns (c : Thread nD τ) arg5 fullShare wh ∗ owns (c : Thread nD τ) arg6 fullShare b
        ∗ (∃ d, owns (c : Thread nD τ) arg7 fullShare d) ∗ (∃ d, owns (c : Thread nD τ) arg8 fullShare d)
        ∗ (iprop(owns (c : Thread nD τ) arg1 fullShare x ∗ owns (c : Thread nD τ) arg2 fullShare h ∗ owns (c : Thread nD τ) arg3 fullShare cp
            ∗ owns (c : Thread nD τ) arg4 fullShare wi ∗ owns (c : Thread nD τ) arg5 fullShare wh ∗ owns (c : Thread nD τ) arg6 fullShare b
            ∗ owns (c : Thread nD τ) arg7 fullShare (out6 x h cp wi wh b) ∗ owns (c : Thread nD τ) arg8 fullShare (out7 x h cp wi wh b)) -∗ K ⟨⟩))
      ⊢ wp frame (wpE (defs₀ (F := F)) Variants.none c none) E
          (cc0_lstm_kernel i arg1 harg1 arg2 harg2 arg3 harg3 arg4 harg4 arg5 harg5 arg6 harg6 arg7 harg7 arg8 harg8) K := by
  simp only [cc0_lstm_kernel_eq_skeleton]; unfold cc0_lstm_kernel_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩,
    ⟨%d6, %f6, -, H6⟩, ⟨%d7, %f7, -, H7⟩, Hk⟩
  subst hf0 hf1 hf2 hf3 hf4 hf5
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    try dsimp only
    exact View.read_writes_eq_canon _ _ _ (cover_all _)
  iexists _; isplitr
  swap; · iexact H7
  ipureintro
  try dsimp only
  exact View.read_writes_eq_canon _ _ _ (cover_all _)

end Cert.KernelIdeal.Body

end
-- ==== Proof.RunIdeal.lean ====
/-
  The region's run for `KernelIdeal`: the proof data of its one pipeline, the body obligation at every grid point, and the
  run of @main to the pipeline library's frame post.

  The grid has 32 points along the batch axis. At point t the three streamed inputs are staged at rows 512·t … 512·t + 511
  of their arrays, the three resident operands are whole in their buffers, and the body overwrites both output buffers,
  which are written back to the same rows of the two result arrays. After the body each input buffer still holds its
  block, and each output buffer holds the body's function of the six input blocks.
-/
import proofs.«149311_j39015482916921_2_alg».proof.Proof.BodyIdeal

set_option maxRecDepth 16384

noncomputable section

namespace Cert.KernelIdeal.Run

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen Cert.KernelIdeal.Entry Cert.KernelIdeal.Body

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The proof data -/

/-- The pipeline's proof data on core `c`: the arrays as the region finds them; after the body at point `t` every
    input buffer at its block and the two output buffers at the body's function of the six input blocks; the invariant
    the scoped rest and the generator register; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => out6 (iblk m c 0 t) (iblk m c 1 t) (iblk m c 2 t) (iblk m c 3 t) (iblk m c 4 t) (iblk m c 5 t)
    | ⟨7, _⟩ => out7 (iblk m c 0 t) (iblk m c 1 t) (iblk m c 2 t) (iblk m c 3 t) (iblk m c 4 t) (iblk m c 5 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = out6 (iblk m c 0 t) (iblk m c 1 t) (iblk m c 2 t) (iblk m c 3 t) (iblk m c 4 t) (iblk m c 5 t) := by dsimp only [dats]
theorem after7 (c : Dev nD) (t : Fin cfg0.N) : (dats m 0 c).after 7 t = out7 (iblk m c 0 t) (iblk m c 1 t) (iblk m c 2 t) (iblk m c 3 t) (iblk m c 4 t) (iblk m c 5 t) := by dsimp only [dats]

theorem before0 (c : Dev nD) (t : Fin cfg0.N) (d) : (dats m 0 c).before 0 t d = iblk m c 0 t :=
  before0_of m (dats m 0 c) (A_eq m c 0) (after0 m c) t d
theorem before1 (c : Dev nD) (t : Fin cfg0.N) (d) : (dats m 0 c).before 1 t d = iblk m c 1 t :=
  before1_of m (dats m 0 c) (A_eq m c 1) (after1 m c) t d
theorem before2 (c : Dev nD) (t : Fin cfg0.N) (d) : (dats m 0 c).before 2 t d = iblk m c 2 t :=
  before2_of m (dats m 0 c) (A_eq m c 2) (after2 m c) t d
theorem before3 (c : Dev nD) (t : Fin cfg0.N) (d) : (dats m 0 c).before 3 t d = iblk m c 3 t :=
  before3_of m (dats m 0 c) (A_eq m c 3) (after3 m c) t d
theorem before4 (c : Dev nD) (t : Fin cfg0.N) (d) : (dats m 0 c).before 4 t d = iblk m c 4 t :=
  before4_of m (dats m 0 c) (A_eq m c 4) (after4 m c) t d
theorem before5 (c : Dev nD) (t : Fin cfg0.N) (d) : (dats m 0 c).before 5 t d = iblk m c 5 t :=
  before5_of m (dats m 0 c) (A_eq m c 5) (after5 m c) t d

/-! ## The body obligation, at a generic point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

/-- The body at any point: the input buffers hold their blocks, so the body's triple applies; the invariant and the
    core's dues pass through unread. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).Φ t.succ = (dats m 0 c).Φ t.castSucc from rfl,
    show (dats m 0 c).owesAt () t.succ = (dats m 0 c).owesAt () t.castSucc from rfl,
    after0, after1, after2, after3, after4, after5, after6, after7]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ (iblk m c 0 t) (iblk m c 1 t) (iblk m c 2 t) (iblk m c 3 t) (iblk m c 4 t) (iblk m c 5 t) _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [H7]; · iexists _; iexact H7
  iintro ⟨H0, H1, H2, H3, H4, H5, H6, H7⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

/-- The pipeline library's body obligation, at every point. -/
theorem body_obligation (c : Dev nD) : BodyObligation (dats (F := F) m 0 c) (defs₀ (F := F)) Variants.none () Set.univ := fun t => by
  rw [bigSep_W0, bigSep_W0]
  exact sound_body m c t

/-! ## The run -/

set_option backward.isDefEq.respectTransparency.types false in
/-- Every weakly fair execution of @main terminates without a fault, every array of the pipeline ending at what the
    proof data says and every other unscoped buffer as the region found it. -/
theorem run_main : θ_run defs (onTc (τ := τ) (main (F := F))) (s₀ m ρ) (Pipeline.FramePost cfgs (dats m) 0 (V m)) :=
  Pipeline.θ_run_frame cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- The frame: @main runs to the end and every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)) :=
  frame_of m ρ (dats m) (A_eq m) (run_main m ρ)

end Cert.KernelIdeal.Run

end
-- ==== Proof.Spec.lean ====
/-
  The single step of an LSTM cell, as one function of its arguments over the extended reals.

  For a batch row r and a gate column n (0 ≤ n < 2048: four gates of 512 columns each, in the order forget, input,
  candidate, output) the gate's pre-activation is

      gate r n = Σ_{k<512} x[r,k] · W[n,k]  +  Σ_{k<512} h[r,k] · W[n,512+k]  +  b[n]

  where W is the four weight matrices stacked along their rows (2048 × 1024: columns 0…511 meet the input x, columns
  512…1023 the previous hidden state h) and b the four bias vectors stacked. With σ the logistic function,

      c'[r,q] = σ(gate r q) · c[r,q] + σ(gate r (512+q)) · tanh(gate r (1024+q))
      h'[r,q] = σ(gate r (1536+q)) · tanh(c'[r,q]).

  One law is proved here: a sum over 1024 terms is the sum of its first 512 terms plus the sum of its last 512. It
  uses only that addition on the extended reals is associative and commutative, so no finiteness is needed.
-/
import Idealize.ShloMosaic.PureOps.Ideal.Laws
import Idealize.ShloMosaic.Lib.ValueIdx

noncomputable section

open scoped BigOperators

namespace Cert.Lstm

open Idealize.ShloMosaic Idealize.ShloMosaic.ValueIdx

/-- A batch of 16384 rows of 512 features. -/
abbrev SAct : Shape := ⟨2, ![16384, 512]⟩
/-- The four gates' weights stacked: 2048 rows of 1024 columns. -/
abbrev SStack : Shape := ⟨2, ![2048, 1024]⟩
/-- The four gates' biases stacked. -/
abbrev SBias : Shape := ⟨1, ![2048]⟩

/-- Column q of gate g among the 2048 stacked columns. -/
def col (g : Fin 4) (q : Fin 512) : Fin 2048 :=
  ⟨512 * g.val + q.val, by have := g.isLt; have := q.isLt; omega⟩

/-- Column k of the half of the stacked weights that meets x. -/
def colX (k : Fin 512) : Fin 1024 := ⟨k.val, by have := k.isLt; omega⟩
/-- Column k of the half that meets h. -/
def colH (k : Fin 512) : Fin 1024 := ⟨512 + k.val, by have := k.isLt; omega⟩

/-- The pre-activation of gate column n at batch row r. -/
def gate (x h : SAct.Idx → EReal) (W : SStack.Idx → EReal) (b : SBias.Idx → EReal) (r : Fin 16384) (n : Fin 2048) : EReal :=
  ((∑ k : Fin 512, x (ix2 r k) * W (ix2 n (colX k))) + ∑ k : Fin 512, h (ix2 r k) * W (ix2 n (colH k))) + b (ix1 n)

/-- The new cell state at (r, q). -/
def cell (x h cp : SAct.Idx → EReal) (W : SStack.Idx → EReal) (b : SBias.Idx → EReal) (r : Fin 16384) (q : Fin 512) : EReal :=
  Ideal.logistic (gate x h W b r (col 0 q)) * cp (ix2 r q)
    + Ideal.logistic (gate x h W b r (col 1 q)) * Ideal.tanh (gate x h W b r (col 2 q))

/-- The new hidden state at (r, q). -/
def hid (x h cp : SAct.Idx → EReal) (W : SStack.Idx → EReal) (b : SBias.Idx → EReal) (r : Fin 16384) (q : Fin 512) : EReal :=
  Ideal.logistic (gate x h W b r (col 3 q)) * Ideal.tanh (cell x h cp W b r q)

/-- The new cell state as an array. -/
def cellArr (x h cp : SAct.Idx → EReal) (W : SStack.Idx → EReal) (b : SBias.Idx → EReal) : SAct.Idx → EReal :=
  fun i => cell x h cp W b (i 0) (i 1)

/-- The new hidden state as an array. -/
def hidArr (x h cp : SAct.Idx → EReal) (W : SStack.Idx → EReal) (b : SBias.Idx → EReal) : SAct.Idx → EReal :=
  fun i => hid x h cp W b (i 0) (i 1)

/-- A sum over 1024 terms is the sum over its first 512 plus the sum over its last 512. -/
theorem sum_halves (f : Fin 1024 → EReal) :
    ∑ k : Fin 1024, f k = (∑ k : Fin 512, f (colX k)) + ∑ k : Fin 512, f (colH k) := by
  show ∑ k : Fin (512 + 512), f k = _
  rw [Fin.sum_univ_add]
  rfl

/-- The float pattern of 1.0 is the real number one. -/
theorem one_f32 : Ideal.ofBits .f32 0x3F800000#32 = 1 := by
  simp [Ideal.ofBits, Ideal.ieee, -EReal.coe_mul]; norm_num

end Cert.Lstm

end
-- ==== Proof.BlockValue.lean ====
/-
  What one call of the kernel body computes, entry by entry, at the ideal values.

  Over the six input blocks — X, H, C of 512 × 512, the two resident weight operands Wi, Wh of 512 × 2048, the bias row B of
  1 × 2048 — gate column n (0 ≤ n < 2048) of block row p has the pre-activation

      Σ_k X[p,k] · Wi[k,n] + Σ_k H[p,k] · Wh[k,n] + B[0,n].

  A matrix product into a zero accumulator is the plain sum of products over the one contracted axis; narrowing to
  sixteen bits is the identity at the ideal values; a shape cast to the same shape is the identity; the bias row is
  repeated down the 512 rows. Gate g reads columns 512·g … 512·g + 511 of Wi, Wh and B.
-/
import proofs.«149311_j39015482916921_2_alg».proof.Proof.BodyIdeal
import proofs.«149311_j39015482916921_2_alg».proof.Proof.Spec
import Idealize.ShloMosaic.Lib.Pipeline.Value
import Idealize.ShloMosaic.Lib.ValueIdx
import Idealize.ShloMosaic.PureOps.Ideal.Laws

set_option maxRecDepth 16384

noncomputable section

open scoped BigOperators

namespace Cert.KernelIdeal.BlockValue

open Idealize.ShloMosaic Idealize.ShloMosaic.ValueIdx
open Cert.KernelIdeal Cert.KernelIdeal.Gen Cert.KernelIdeal.Body Cert.Lstm

/-! ## A 512 × 512 by 512 × 512 product at an entry -/

theorem lhs_row (i : S512x512.Idx) (q : dot_S512x512_S512x512_S512x512_1_0_0_1_n_n.contr.Idx) : (dot_S512x512_S512x512_S512x512_1_0_0_1_n_n.lhsIdx i q 0).val = (i 0).val := by
  unfold DotDims.lhsIdx
  rw [dif_neg (show ¬(0 : Fin S512x512.rank) ∈ dot_S512x512_S512x512_S512x512_1_0_0_1_n_n.lhsBatch by decide), dif_pos (show (0 : Fin S512x512.rank) ∈ dot_S512x512_S512x512_S512x512_1_0_0_1_n_n.lhsNonContracting by decide)]
  rfl
theorem lhs_contr (i : S512x512.Idx) (q : dot_S512x512_S512x512_S512x512_1_0_0_1_n_n.contr.Idx) : (dot_S512x512_S512x512_S512x512_1_0_0_1_n_n.lhsIdx i q 1).val = (q ⟨0, by decide⟩).val :=
  dot_S512x512_S512x512_S512x512_1_0_0_1_n_n.lhsIdx_val_of_single rfl i q
theorem rhs_contr (i : S512x512.Idx) (q : dot_S512x512_S512x512_S512x512_1_0_0_1_n_n.contr.Idx) : (dot_S512x512_S512x512_S512x512_1_0_0_1_n_n.rhsIdx i q 0).val = (q ⟨0, by decide⟩).val :=
  dot_S512x512_S512x512_S512x512_1_0_0_1_n_n.rhsIdx_val_of_single rfl i q
theorem rhs_col (i : S512x512.Idx) (q : dot_S512x512_S512x512_S512x512_1_0_0_1_n_n.contr.Idx) : (dot_S512x512_S512x512_S512x512_1_0_0_1_n_n.rhsIdx i q 1).val = (i 1).val := by
  unfold DotDims.rhsIdx
  rw [dif_neg (show ¬(1 : Fin S512x512.rank) ∈ dot_S512x512_S512x512_S512x512_1_0_0_1_n_n.rhsBatch by decide), dif_pos (show (1 : Fin S512x512.rank) ∈ dot_S512x512_S512x512_S512x512_1_0_0_1_n_n.rhsNonContracting by decide)]
  rfl

/-- The product into a zero accumulator at (p, q) is Σ_k A[p,k] · M[k,q]. -/
theorem prod_apply (A M : FVec Ideal S512x512 .bf16) (p q : Fin 512) :
    matmul dot_S512x512_S512x512_S512x512_1_0_0_1_n_n none A M (constant S512x512 .f32 0x00000000#32) (ix2 p q) = ∑ k : Fin 512, A (ix2 p k) * M (ix2 k q) := by
  simp only [matmul]
  rw [Ideal.matmul_constant_zero_apply, ← Equiv.sum_comp (contrEquiv1 dot_S512x512_S512x512_S512x512_1_0_0_1_n_n 512 rfl rfl).symm]
  refine Finset.sum_congr rfl fun k _ => ?_
  have hk := contrEquiv1_symm_val dot_S512x512_S512x512_S512x512_1_0_0_1_n_n 512 rfl rfl k
  have el : dot_S512x512_S512x512_S512x512_1_0_0_1_n_n.lhsIdx (ix2 p q) ((contrEquiv1 dot_S512x512_S512x512_S512x512_1_0_0_1_n_n 512 rfl rfl).symm k) = ix2 p k := funext fun a => Fin.ext (by
    match a with
    | ⟨0, _⟩ => exact lhs_row _ _
    | ⟨1, _⟩ => exact (lhs_contr _ _).trans hk)
  have er : dot_S512x512_S512x512_S512x512_1_0_0_1_n_n.rhsIdx (ix2 p q) ((contrEquiv1 dot_S512x512_S512x512_S512x512_1_0_0_1_n_n 512 rfl rfl).symm k) = ix2 k q := funext fun a => Fin.ext (by
    match a with
    | ⟨0, _⟩ => exact (rhs_contr _ _).trans hk
    | ⟨1, _⟩ => exact rhs_col _ _)
  rw [el, er]

/-- A row repeated down 512 rows, at (p, q), is the row's entry q. -/
theorem row_bcast (b : FVec Ideal S1x512 .f32) (p q : Fin 512) :
    broadcastTo S512x512 b broadcasts_S1x512_S512x512 (ix2 p q) = b (ix2 0 q) :=
  broadcastTo_apply b broadcasts_S1x512_S512x512 (ix2 p q) (ix2 0 q) (fun a => match a with
    | ⟨0, _⟩ => by show 0 = if (1 : Nat) = 1 then 0 else p.val; rw [if_pos rfl]
    | ⟨1, _⟩ => by show q.val = if (512 : Nat) = 1 then 0 else q.val; rw [if_neg (by decide)])

/-! ## One gate's pre-activation over a 512-column panel -/

/-- x · wi + h · wh + b as the body writes it: both activations narrowed, the two panels and the bias stretch shape-cast to
    their own shapes, the two products into zero accumulators added, the bias row repeated down the rows and added. -/
def pre (x h : Vec Ideal S512x512 .f32) (wi wh : Vec Ideal S512x512 .bf16) (b : Vec Ideal S1x512 .f32) : FVec Ideal S512x512 .f32 :=
  addf (addf (matmul dot_S512x512_S512x512_S512x512_1_0_0_1_n_n none (truncf .bf16 x bitsLt_bf16_f32 : FVec Ideal S512x512 .bf16)
        (shapeCast S512x512 wi shapeCasts_S512x512_S512x512 : FVec Ideal S512x512 .bf16) (constant S512x512 .f32 0x00000000#32))
      (matmul dot_S512x512_S512x512_S512x512_1_0_0_1_n_n none (truncf .bf16 h bitsLt_bf16_f32 : FVec Ideal S512x512 .bf16)
        (shapeCast S512x512 wh shapeCasts_S512x512_S512x512 : FVec Ideal S512x512 .bf16) (constant S512x512 .f32 0x00000000#32)))
    (broadcastTo S512x512 (shapeCast S1x512 b shapeCasts_S1x512_S1x512 : FVec Ideal S1x512 .f32) broadcasts_S1x512_S512x512)

theorem pre_apply (x h : Vec Ideal S512x512 .f32) (wi wh : Vec Ideal S512x512 .bf16) (b : Vec Ideal S1x512 .f32) (p q : Fin 512) :
    pre x h wi wh b (ix2 p q)
      = ((∑ k : Fin 512, x (ix2 p k) * wi (ix2 k q)) + ∑ k : Fin 512, h (ix2 p k) * wh (ix2 k q)) + b (ix2 0 q) := by
  unfold pre
  rw [shapeCast_self, shapeCast_self, shapeCast_self, addf_apply, addf_apply, prod_apply, prod_apply, row_bcast]
  rfl

/-! ## Loads through the panels' rectangles -/

theorem ld_panel0 (M : Vec Ideal S512x2048 .bf16) (k q : Fin 512) : View.ld M rW0 (ix2 k q) = M (ix2 k (col 0 q)) :=
  congrArg M (funext fun a => Fin.ext (by
    match a with
    | ⟨0, _⟩ => show 0 + 1 * k.val = k.val; omega
    | ⟨1, _⟩ => show 0 + 1 * q.val = 512 * 0 + q.val; omega))
theorem ld_bias0 (B : Vec Ideal S1x2048 .f32) (q : Fin 512) : View.ld B rB0 (ix2 0 q) = B (ix2 0 (col 0 q)) :=
  congrArg B (funext fun a => Fin.ext (by
    match a with
    | ⟨0, _⟩ => show 0 + 1 * 0 = 0; rfl
    | ⟨1, _⟩ => show 0 + 1 * q.val = 512 * 0 + q.val; omega))
theorem ld_panel1 (M : Vec Ideal S512x2048 .bf16) (k q : Fin 512) : View.ld M rW1 (ix2 k q) = M (ix2 k (col 1 q)) :=
  congrArg M (funext fun a => Fin.ext (by
    match a with
    | ⟨0, _⟩ => show 0 + 1 * k.val = k.val; omega
    | ⟨1, _⟩ => show 512 + 1 * q.val = 512 * 1 + q.val; omega))
theorem ld_bias1 (B : Vec Ideal S1x2048 .f32) (q : Fin 512) : View.ld B rB1 (ix2 0 q) = B (ix2 0 (col 1 q)) :=
  congrArg B (funext fun a => Fin.ext (by
    match a with
    | ⟨0, _⟩ => show 0 + 1 * 0 = 0; rfl
    | ⟨1, _⟩ => show 512 + 1 * q.val = 512 * 1 + q.val; omega))
theorem ld_panel2 (M : Vec Ideal S512x2048 .bf16) (k q : Fin 512) : View.ld M rW2 (ix2 k q) = M (ix2 k (col 2 q)) :=
  congrArg M (funext fun a => Fin.ext (by
    match a with
    | ⟨0, _⟩ => show 0 + 1 * k.val = k.val; omega
    | ⟨1, _⟩ => show 1024 + 1 * q.val = 512 * 2 + q.val; omega))
theorem ld_bias2 (B : Vec Ideal S1x2048 .f32) (q : Fin 512) : View.ld B rB2 (ix2 0 q) = B (ix2 0 (col 2 q)) :=
  congrArg B (funext fun a => Fin.ext (by
    match a with
    | ⟨0, _⟩ => show 0 + 1 * 0 = 0; rfl
    | ⟨1, _⟩ => show 1024 + 1 * q.val = 512 * 2 + q.val; omega))
theorem ld_panel3 (M : Vec Ideal S512x2048 .bf16) (k q : Fin 512) : View.ld M rW3 (ix2 k q) = M (ix2 k (col 3 q)) :=
  congrArg M (funext fun a => Fin.ext (by
    match a with
    | ⟨0, _⟩ => show 0 + 1 * k.val = k.val; omega
    | ⟨1, _⟩ => show 1536 + 1 * q.val = 512 * 3 + q.val; omega))
theorem ld_bias3 (B : Vec Ideal S1x2048 .f32) (q : Fin 512) : View.ld B rB3 (ix2 0 q) = B (ix2 0 (col 3 q)) :=
  congrArg B (funext fun a => Fin.ext (by
    match a with
    | ⟨0, _⟩ => show 0 + 1 * 0 = 0; rfl
    | ⟨1, _⟩ => show 1536 + 1 * q.val = 512 * 3 + q.val; omega))

theorem zeros2 : (![0, 0] : Fin 2 → Nat) = fun _ => 0 := funext fun a => by fin_cases a <;> rfl

/-! ## The two payloads at an entry -/

/-- Gate column n of block row p. -/
def bgate (X H : S512x512.Idx → EReal) (Wi Wh : S512x2048.Idx → EReal) (B : S1x2048.Idx → EReal) (p : Fin 512) (n : Fin 2048) : EReal :=
  ((∑ k : Fin 512, X (ix2 p k) * Wi (ix2 k n)) + ∑ k : Fin 512, H (ix2 p k) * Wh (ix2 k n)) + B (ix2 0 n)

/-- Over gate 0's panel the pre-activation at (p, q) is gate column 512·0 + q of block row p. -/
theorem pre_panel0 (X H : Vec Ideal S512x512 .f32) (Wi Wh : Vec Ideal S512x2048 .bf16) (B : Vec Ideal S1x2048 .f32) (p q : Fin 512) :
    pre X H (View.ld Wi rW0) (View.ld Wh rW0) (View.ld B rB0) (ix2 p q) = bgate X H Wi Wh B p (col 0 q) := by
  rw [pre_apply]
  unfold bgate
  refine congrArg₂ (· + ·) (congrArg₂ (· + ·) (Finset.sum_congr rfl fun k _ => ?_) (Finset.sum_congr rfl fun k _ => ?_)) ?_
  · exact congrArg (X (ix2 p k) * ·) (ld_panel0 Wi k q)
  · exact congrArg (H (ix2 p k) * ·) (ld_panel0 Wh k q)
  · exact ld_bias0 B q

/-- Over gate 1's panel the pre-activation at (p, q) is gate column 512·1 + q of block row p. -/
theorem pre_panel1 (X H : Vec Ideal S512x512 .f32) (Wi Wh : Vec Ideal S512x2048 .bf16) (B : Vec Ideal S1x2048 .f32) (p q : Fin 512) :
    pre X H (View.ld Wi rW1) (View.ld Wh rW1) (View.ld B rB1) (ix2 p q) = bgate X H Wi Wh B p (col 1 q) := by
  rw [pre_apply]
  unfold bgate
  refine congrArg₂ (· + ·) (congrArg₂ (· + ·) (Finset.sum_congr rfl fun k _ => ?_) (Finset.sum_congr rfl fun k _ => ?_)) ?_
  · exact congrArg (X (ix2 p k) * ·) (ld_panel1 Wi k q)
  · exact congrArg (H (ix2 p k) * ·) (ld_panel1 Wh k q)
  · exact ld_bias1 B q

/-- Over gate 2's panel the pre-activation at (p, q) is gate column 512·2 + q of block row p. -/
theorem pre_panel2 (X H : Vec Ideal S512x512 .f32) (Wi Wh : Vec Ideal S512x2048 .bf16) (B : Vec Ideal S1x2048 .f32) (p q : Fin 512) :
    pre X H (View.ld Wi rW2) (View.ld Wh rW2) (View.ld B rB2) (ix2 p q) = bgate X H Wi Wh B p (col 2 q) := by
  rw [pre_apply]
  unfold bgate
  refine congrArg₂ (· + ·) (congrArg₂ (· + ·) (Finset.sum_congr rfl fun k _ => ?_) (Finset.sum_congr rfl fun k _ => ?_)) ?_
  · exact congrArg (X (ix2 p k) * ·) (ld_panel2 Wi k q)
  · exact congrArg (H (ix2 p k) * ·) (ld_panel2 Wh k q)
  · exact ld_bias2 B q

/-- Over gate 3's panel the pre-activation at (p, q) is gate column 512·3 + q of block row p. -/
theorem pre_panel3 (X H : Vec Ideal S512x512 .f32) (Wi Wh : Vec Ideal S512x2048 .bf16) (B : Vec Ideal S1x2048 .f32) (p q : Fin 512) :
    pre X H (View.ld Wi rW3) (View.ld Wh rW3) (View.ld B rB3) (ix2 p q) = bgate X H Wi Wh B p (col 3 q) := by
  rw [pre_apply]
  unfold bgate
  refine congrArg₂ (· + ·) (congrArg₂ (· + ·) (Finset.sum_congr rfl fun k _ => ?_) (Finset.sum_congr rfl fun k _ => ?_)) ?_
  · exact congrArg (X (ix2 p k) * ·) (ld_panel3 Wi k q)
  · exact congrArg (H (ix2 p k) * ·) (ld_panel3 Wh k q)
  · exact ld_bias3 B q

/-- The stored cell state at (p, q). -/
theorem cellPay_apply (X H C : Vec Ideal S512x512 .f32) (Wi Wh : Vec Ideal S512x2048 .bf16) (B : Vec Ideal S1x2048 .f32) (p q : Fin 512) :
    cellPay X H C Wi Wh B (ix2 p q)
      = Ideal.logistic (bgate X H Wi Wh B p (col 0 q)) * C (ix2 p q)
        + Ideal.logistic (bgate X H Wi Wh B p (col 1 q)) * Ideal.tanh (bgate X H Wi Wh B p (col 2 q)) := by
  have e : cellPay X H C Wi Wh B
      = addf (mulf (logistic (pre (View.ld X rAll) (View.ld H rAll) (View.ld Wi rW0) (View.ld Wh rW0) (View.ld B rB0))) (View.ld C rAll))
          (mulf (logistic (pre (View.ld X rAll) (View.ld H rAll) (View.ld Wi rW1) (View.ld Wh rW1) (View.ld B rB1)))
            (tanh (pre (View.ld X rAll) (View.ld H rAll) (View.ld Wi rW2) (View.ld Wh rW2) (View.ld B rB2)))) := rfl
  rw [e]
  simp only [View.ld_unit_zero (S := S512x512) zeros2]
  show Ideal.logistic (pre X H (View.ld Wi rW0) (View.ld Wh rW0) (View.ld B rB0) (ix2 p q)) * C (ix2 p q)
      + Ideal.logistic (pre X H (View.ld Wi rW1) (View.ld Wh rW1) (View.ld B rB1) (ix2 p q))
        * Ideal.tanh (pre X H (View.ld Wi rW2) (View.ld Wh rW2) (View.ld B rB2) (ix2 p q)) = _
  rw [pre_panel0 X H Wi Wh B p q, pre_panel1 X H Wi Wh B p q, pre_panel2 X H Wi Wh B p q]

/-- The stored hidden state at (p, q). -/
theorem hidPay_apply (X H C : Vec Ideal S512x512 .f32) (Wi Wh : Vec Ideal S512x2048 .bf16) (B : Vec Ideal S1x2048 .f32) (p q : Fin 512) :
    hidPay X H C Wi Wh B (ix2 p q)
      = Ideal.logistic (bgate X H Wi Wh B p (col 3 q)) * Ideal.tanh (cellPay X H C Wi Wh B (ix2 p q)) := by
  have e : hidPay X H C Wi Wh B
      = mulf (logistic (pre (View.ld X rAll) (View.ld H rAll) (View.ld Wi rW3) (View.ld Wh rW3) (View.ld B rB3)))
          (tanh (cellPay X H C Wi Wh B)) := rfl
  rw [e]
  simp only [View.ld_unit_zero (S := S512x512) zeros2]
  show Ideal.logistic (pre X H (View.ld Wi rW3) (View.ld Wh rW3) (View.ld B rB3) (ix2 p q))
      * Ideal.tanh (cellPay X H C Wi Wh B (ix2 p q)) = _
  rw [pre_panel3 X H Wi Wh B p q]

end Cert.KernelIdeal.BlockValue

end
-- ==== Proof.Staged.lean ====
/-
  What the region finds in its windows' arrays, and what each window's block holds, at the ideal values.

  The weight operand that meets x is the left half (columns 0…511) of the stacked weights, transposed: its entry (k, n) is
  the stack's entry (n, k). The one that meets h is the right half transposed: entry (k, n) is the stack's (n, 512 + k).
  The bias operand is the stacked bias as one row. The three streamed arrays are the arguments themselves.
  At grid point t the streamed windows' blocks are rows 512·t … 512·t + 511 of their arrays; the resident windows' blocks
  are their whole arrays at every point.
-/
import proofs.«149311_j39015482916921_2_alg».proof.Proof.EntryIdeal
import proofs.«149311_j39015482916921_2_alg».proof.Proof.Spec
import Idealize.ShloMosaic.Lib.Pipeline.Value
import Idealize.ShloMosaic.Lib.ValueIdx
import Idealize.ShloMosaic.Lib.StableHlo.Run

set_option maxRecDepth 16384

noncomputable section

namespace Cert.KernelIdeal.Staged

open Idealize.ShloMosaic Idealize.ShloMosaic.TcCoe Idealize.SL.Sem Idealize.ShloMosaic.ValueIdx Idealize.ShloMosaic.StableHlo
open Cert.KernelIdeal Cert.KernelIdeal.Gen Cert.KernelIdeal.Entry Cert.Lstm

variable (m : (ℓ : Loc nD τ sig) → Buf (Elt Ideal) ℓ)

/-! ## The stacked parameters -/

/-- The four weight matrices stacked along their rows. -/
def stack (c : Dev nD) : S2048x1024.Idx → EReal :=
  concatenate S2048x1024 0 [⟨S512x1024, m ((c : Thread nD τ).loc main_arg3)⟩, ⟨S512x1024, m ((c : Thread nD τ).loc main_arg5)⟩,
    ⟨S512x1024, m ((c : Thread nD τ).loc main_arg7)⟩, ⟨S512x1024, m ((c : Thread nD τ).loc main_arg9)⟩]
    concatenates_S512x1024_S512x1024_S512x1024_S512x1024_S2048x1024_d0

/-- The four bias vectors stacked. -/
def biasStack (c : Dev nD) : S2048.Idx → EReal :=
  concatenate S2048 0 [⟨S512, m ((c : Thread nD τ).loc main_arg4)⟩, ⟨S512, m ((c : Thread nD τ).loc main_arg6)⟩,
    ⟨S512, m ((c : Thread nD τ).loc main_arg8)⟩, ⟨S512, m ((c : Thread nD τ).loc main_arg10)⟩]
    concatenates_S512_S512_S512_S512_S2048_d0

/-! ## The three host-computed operands at an index -/

theorem wi_term (c : Dev nD) : V m c main_v4
    = (truncf (F := Ideal) .bf16 (transpose S512x2048 [1, 0] (extractStridedSlice S2048x512 ![0, 0] (stack m c) slices_S2048x1024_S2048x512_0_0)
        transposes_S2048x512_S512x2048_1_0 : FVec Ideal S512x2048 .f32) bitsLt_bf16_f32 : FVec Ideal S512x2048 .bf16) := by
  dsimp only [V, Gen.hostOps0]; after_results; rfl

theorem wh_term (c : Dev nD) : V m c main_v7
    = (truncf (F := Ideal) .bf16 (transpose S512x2048 [1, 0] (extractStridedSlice S2048x512 ![0, 512] (stack m c) slices_S2048x1024_S2048x512_0_512)
        transposes_S2048x512_S512x2048_1_0 : FVec Ideal S512x2048 .f32) bitsLt_bf16_f32 : FVec Ideal S512x2048 .bf16) := by
  dsimp only [V, Gen.hostOps0]; after_results; rfl

theorem bias_term (c : Dev nD) : V m c main_v8
    = (shapeCast S1x2048 (biasStack m c) shapeCasts_S2048_S1x2048 : S1x2048.Idx → EReal) := by
  dsimp only [V, Gen.hostOps0]; after_results; rfl

/-- The operand that meets x, at (k, n): the stack at (n, k). -/
theorem wi_at (c : Dev nD) (k : Fin 512) (n : Fin 2048) :
    (V m c main_v4 : S512x2048.Idx → EReal) (ix2 k n) = stack m c (ix2 n (colX k)) :=
  (congrFun (wi_term m c) (ix2 k n)).trans
    ((transpose_apply [1, 0] _ transposes_S2048x512_S512x2048_1_0 (ix2 k n) (ix2 n k) (fun b => match b with
        | ⟨0, _⟩ => rfl
        | ⟨1, _⟩ => rfl)).trans
      (extractStridedSlice_apply ![0, 0] (stack m c) slices_S2048x1024_S2048x512_0_0 (ix2 n k) (ix2 n (colX k)) (fun a => match a with
        | ⟨0, _⟩ => by show n.val = 0 + n.val; omega
        | ⟨1, _⟩ => by show k.val = 0 + k.val; omega)))

/-- The operand that meets h, at (k, n): the stack at (n, 512 + k). -/
theorem wh_at (c : Dev nD) (k : Fin 512) (n : Fin 2048) :
    (V m c main_v7 : S512x2048.Idx → EReal) (ix2 k n) = stack m c (ix2 n (colH k)) :=
  (congrFun (wh_term m c) (ix2 k n)).trans
    ((transpose_apply [1, 0] _ transposes_S2048x512_S512x2048_1_0 (ix2 k n) (ix2 n k) (fun b => match b with
        | ⟨0, _⟩ => rfl
        | ⟨1, _⟩ => rfl)).trans
      (extractStridedSlice_apply ![0, 512] (stack m c) slices_S2048x1024_S2048x512_0_512 (ix2 n k) (ix2 n (colH k)) (fun a => match a with
        | ⟨0, _⟩ => by show n.val = 0 + n.val; omega
        | ⟨1, _⟩ => by show 512 + k.val = 512 + k.val; rfl)))

/-- The bias row at (0, n): the stacked bias at n. -/
theorem bias_at (c : Dev nD) (n : Fin 2048) :
    (V m c main_v8 : S1x2048.Idx → EReal) (ix2 0 n) = biasStack m c (ix1 n) :=
  (congrFun (bias_term m c) (ix2 0 n)).trans
    ((shapeCast_addUnit_apply ![2048] (biasStack m c) shapeCasts_S2048_S1x2048 (ix2 0 n)).trans
      (congrArg (biasStack m c) (funext fun a => by match a with | ⟨0, _⟩ => rfl)))

/-! ## The index maps over the grid -/

/-- Decided over the 32 points: the streamed windows and the two outputs sit at block row t, the resident ones at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 32 := lt_of_lt_of_eq t.isLt N_0

/-- Row p of block row t. -/
def row (t : Fin cfg0.N) (p : Fin 512) : Fin 16384 :=
  ⟨512 * t.val + p.val, by have := point_lt t; have := p.isLt; omega⟩

/-! ## The blocks at an index -/

/-- Window 0's block at point t, entry (p, k): row 512·t + p of its array. -/
theorem blk0_at (c : Dev nD) (t : Fin cfg0.N) (p k : Fin 512) :
    iblk m c 0 t (ix2 p k) = V m c main_arg0 (ix2 (row t p) k) := by
  obtain ⟨e00, e01, e10, e11, e20, e21, -⟩ := idx_facts t
  unfold iblk
  show V m c main_arg0 (((cfg0.win 0).blk t).view.emb (ix2 p k)) = _
  refine congrArg (V m c main_arg0) (funext fun a => Fin.ext ?_)
  match a with
  | ⟨0, _⟩ => show win0_0.index t (0 : Fin 2) * 512 + 1 * p.val = 512 * t.val + p.val; omega
  | ⟨1, _⟩ => show win0_0.index t (1 : Fin 2) * 512 + 1 * k.val = k.val; omega
/-- Window 1's block at point t, entry (p, k): row 512·t + p of its array. -/
theorem blk1_at (c : Dev nD) (t : Fin cfg0.N) (p k : Fin 512) :
    iblk m c 1 t (ix2 p k) = V m c main_arg1 (ix2 (row t p) k) := by
  obtain ⟨e00, e01, e10, e11, e20, e21, -⟩ := idx_facts t
  unfold iblk
  show V m c main_arg1 (((cfg0.win 1).blk t).view.emb (ix2 p k)) = _
  refine congrArg (V m c main_arg1) (funext fun a => Fin.ext ?_)
  match a with
  | ⟨0, _⟩ => show win0_1.index t (0 : Fin 2) * 512 + 1 * p.val = 512 * t.val + p.val; omega
  | ⟨1, _⟩ => show win0_1.index t (1 : Fin 2) * 512 + 1 * k.val = k.val; omega
/-- Window 2's block at point t, entry (p, k): row 512·t + p of its array. -/
theorem blk2_at (c : Dev nD) (t : Fin cfg0.N) (p k : Fin 512) :
    iblk m c 2 t (ix2 p k) = V m c main_arg2 (ix2 (row t p) k) := by
  obtain ⟨e00, e01, e10, e11, e20, e21, -⟩ := idx_facts t
  unfold iblk
  show V m c main_arg2 (((cfg0.win 2).blk t).view.emb (ix2 p k)) = _
  refine congrArg (V m c main_arg2) (funext fun a => Fin.ext ?_)
  match a with
  | ⟨0, _⟩ => show win0_2.index t (0 : Fin 2) * 512 + 1 * p.val = 512 * t.val + p.val; omega
  | ⟨1, _⟩ => show win0_2.index t (1 : Fin 2) * 512 + 1 * k.val = k.val; omega

/-- Window 3's block is its whole array. -/
theorem blk3_at (c : Dev nD) (t : Fin cfg0.N) (k : Fin 512) (n : Fin 2048) :
    iblk m c 3 t (ix2 k n) = (V m c main_v4 : S512x2048.Idx → EReal) (ix2 k n) := by
  obtain ⟨-, -, -, -, -, -, e30, e31, -⟩ := idx_facts t
  unfold iblk
  show V m c main_v4 (((cfg0.win 3).blk t).view.emb (ix2 k n)) = _
  refine congrArg (V m c main_v4) (funext fun a => Fin.ext ?_)
  match a with
  | ⟨0, _⟩ => show win0_3.index t (0 : Fin 2) * 512 + 1 * k.val = k.val; omega
  | ⟨1, _⟩ => show win0_3.index t (1 : Fin 2) * 2048 + 1 * n.val = n.val; omega

/-- Window 4's block is its whole array. -/
theorem blk4_at (c : Dev nD) (t : Fin cfg0.N) (k : Fin 512) (n : Fin 2048) :
    iblk m c 4 t (ix2 k n) = (V m c main_v7 : S512x2048.Idx → EReal) (ix2 k n) := by
  obtain ⟨-, -, -, -, -, -, -, -, e40, e41, -⟩ := idx_facts t
  unfold iblk
  show V m c main_v7 (((cfg0.win 4).blk t).view.emb (ix2 k n)) = _
  refine congrArg (V m c main_v7) (funext fun a => Fin.ext ?_)
  match a with
  | ⟨0, _⟩ => show win0_4.index t (0 : Fin 2) * 512 + 1 * k.val = k.val; omega
  | ⟨1, _⟩ => show win0_4.index t (1 : Fin 2) * 2048 + 1 * n.val = n.val; omega

/-- Window 5's block is its whole array. -/
theorem blk5_at (c : Dev nD) (t : Fin cfg0.N) (n : Fin 2048) :
    iblk m c 5 t (ix2 0 n) = (V m c main_v8 : S1x2048.Idx → EReal) (ix2 0 n) := by
  obtain ⟨-, -, -, -, -, -, -, -, -, -, e50, e51, -⟩ := idx_facts t
  unfold iblk
  show V m c main_v8 (((cfg0.win 5).blk t).view.emb (ix2 0 n)) = _
  refine congrArg (V m c main_v8) (funext fun a => Fin.ext ?_)
  match a with
  | ⟨0, _⟩ => show win0_5.index t (0 : Fin 2) * 1 + 1 * 0 = 0; omega
  | ⟨1, _⟩ => show win0_5.index t (1 : Fin 2) * 2048 + 1 * n.val = n.val; omega

end Cert.KernelIdeal.Staged

end
-- ==== Proof.KernelValue.lean ====
/-
  The kernel's two result arrays after the run, as the specification's functions of the arguments.

  At grid point t the body is handed rows 512·t … 512·t + 511 of x, h and c and the whole of the three resident operands,
  so gate column n of block row p is gate column n of batch row 512·t + p of the specification, and what the point writes
  back to each result is exactly its 512 rows of c' or h'. The 32 blocks tile each result array (row r lies in block
  r / 512), so after the run each result array is the specification's whole array.
-/
import proofs.«149311_j39015482916921_2_alg».proof.Proof.RunIdeal
import proofs.«149311_j39015482916921_2_alg».proof.Proof.BlockValue
import proofs.«149311_j39015482916921_2_alg».proof.Proof.Staged

set_option maxRecDepth 16384

noncomputable section

open scoped BigOperators

namespace Cert.KernelIdeal.KValue

open Idealize.ShloMosaic Idealize.ShloMosaic.TcCoe Idealize.SL.Sem Idealize.ShloMosaic.ValueIdx
open Idealize.ShloMosaic.Pipeline (Dat)
open Cert.KernelIdeal Cert.KernelIdeal.Gen Cert.KernelIdeal.Entry Cert.KernelIdeal.Body Cert.KernelIdeal.Run
open Cert.KernelIdeal.BlockValue Cert.KernelIdeal.Staged Cert.Lstm

variable (m : (ℓ : Loc nD τ sig) → Buf (Elt Ideal) ℓ) (ρ : Dev nD → PrngReg)

/-- The new hidden state of the arguments on core `c`. -/
def hidG (c : Dev nD) : S16384x512.Idx → EReal := hidArr (m ((c : Thread nD τ).loc main_arg0)) (m ((c : Thread nD τ).loc main_arg1)) (m ((c : Thread nD τ).loc main_arg2)) (stack m c) (biasStack m c)
/-- The new cell state. -/
def cellG (c : Dev nD) : S16384x512.Idx → EReal := cellArr (m ((c : Thread nD τ).loc main_arg0)) (m ((c : Thread nD τ).loc main_arg1)) (m ((c : Thread nD τ).loc main_arg2)) (stack m c) (biasStack m c)

/-- Gate column n of block row p at point t is gate column n of batch row 512·t + p. -/
theorem block_gate (c : Dev nD) (t : Fin cfg0.N) (p : Fin 512) (n : Fin 2048) :
    bgate (iblk m c 0 t) (iblk m c 1 t) (iblk m c 3 t) (iblk m c 4 t) (iblk m c 5 t) p n
      = gate (m ((c : Thread nD τ).loc main_arg0)) (m ((c : Thread nD τ).loc main_arg1)) (stack m c) (biasStack m c) (row t p) n := by
  unfold bgate gate
  refine congrArg₂ (· + ·) (congrArg₂ (· + ·) (Finset.sum_congr rfl fun k _ => ?_) (Finset.sum_congr rfl fun k _ => ?_)) ?_
  · exact congrArg₂ (· * ·) ((blk0_at m c t p k).trans (congrFun (V_main_arg0 m c) _))
      ((blk3_at m c t k n).trans (wi_at m c k n))
  · exact congrArg₂ (· * ·) ((blk1_at m c t p k).trans (congrFun (V_main_arg1 m c) _))
      ((blk4_at m c t k n).trans (wh_at m c k n))
  · exact (blk5_at m c t n).trans (bias_at m c n)

/-! ## Window 6: the new hidden state -/

/-- Entry (p, q) of point t's block of window 6 is entry (512·t + p, q) of its array. -/
theorem emb6 (t : Fin cfg0.N) (p q : Fin 512) : ((cfg0.win 6).blk t).view.emb (ix2 p q) = ix2 (row t p) q := by
  obtain ⟨-, -, -, -, -, -, -, -, -, -, -, -, e60, e61, e70, e71⟩ := idx_facts t
  funext a; apply Fin.ext
  match a with
  | ⟨0, _⟩ => show win0_6.index t (0 : Fin 2) * 512 + 1 * p.val = 512 * t.val + p.val; omega
  | ⟨1, _⟩ => show win0_6.index t (1 : Fin 2) * 512 + 1 * q.val = q.val; omega

/-- What point t writes back through window 6 is its rows of the specification's array. -/
theorem flushed6_eq (c : Dev nD) (t : Fin cfg0.N) :
    (dats m 0 c).flushed 6 t = ((cfg0.win 6).blk t).view.read (Elt Ideal) (hidG m c) := by
  show (cfg0.win 6).cut (grid0.coords t) ((dats m 0 c).after 6 t) = _
  rw [after6]
  unfold out6
  rw [View.canon_unit_zero zeros2]
  funext j
  obtain ⟨p, q, rfl⟩ : ∃ (p : Fin 512) (q : Fin 512), j = ix2 p q := ⟨j 0, j 1, eq_ix2 j⟩
  show hidPay (iblk m c 0 t) (iblk m c 1 t) (iblk m c 2 t) (iblk m c 3 t) (iblk m c 4 t) (iblk m c 5 t) (ix2 p q) = hidG m c (((cfg0.win 6).blk t).view.emb (ix2 p q))
  rw [emb6]
  refine ((hidPay_apply (iblk m c 0 t) (iblk m c 1 t) (iblk m c 2 t) (iblk m c 3 t) (iblk m c 4 t) (iblk m c 5 t) p q).trans (congrArg (fun z => Ideal.logistic (bgate (iblk m c 0 t) (iblk m c 1 t) (iblk m c 3 t) (iblk m c 4 t) (iblk m c 5 t) p (col 3 q)) * Ideal.tanh z) (cellPay_apply (iblk m c 0 t) (iblk m c 1 t) (iblk m c 2 t) (iblk m c 3 t) (iblk m c 4 t) (iblk m c 5 t) p q))).trans ?_
  rw [block_gate m c t p (col 0 q), block_gate m c t p (col 1 q), block_gate m c t p (col 2 q), block_gate m c t p (col 3 q),
    blk2_at m c t p q, V_main_arg2 m c]
  rfl

theorem mem_blk6 (t : Fin cfg0.N) (i : S16384x512.Idx) :
    i ∈ ((cfg0.win 6).blk t).view.set ↔ ∀ a : Fin 2, win0_6.index t a * S512x512.size a ≤ (i a).val
      ∧ (i a).val < win0_6.index t a * S512x512.size a + S512x512.size a := by
  show i ∈ ((View.whole main_v9_0).slice (win0_6.rect t)).set ↔ _
  rw [View.set_slice_whole, Rect.mem_set_unit]
  exact Iff.rfl

/-- Row r of the array lies in the block of point r / 512. -/
theorem cover6 (i : S16384x512.Idx) : ∃ t : Fin cfg0.N, (cfg0.win 6).flush t = true ∧ i ∈ ((cfg0.win 6).blk t).view.set := by
  have hi0 : (i 0).val < 16384 := (i 0).isLt
  have hi1 : (i 1).val < 512 := (i 1).isLt
  obtain ⟨t, ht⟩ : ∃ t : Fin cfg0.N, t.val = (i 0).val / 512 :=
    ⟨⟨(i 0).val / 512, lt_of_lt_of_eq (by omega : (i 0).val / 512 < 32) N_0.symm⟩, rfl⟩
  obtain ⟨-, -, -, -, -, -, -, -, -, -, -, -, e60, e61, e70, e71⟩ := idx_facts t
  refine ⟨t, flush0_6 t, ?_⟩
  rw [mem_blk6]
  intro a
  match a with
  | ⟨0, _⟩ => show win0_6.index t (0 : Fin 2) * 512 ≤ (i 0).val ∧ (i 0).val < win0_6.index t (0 : Fin 2) * 512 + 512; omega
  | ⟨1, _⟩ => show win0_6.index t (1 : Fin 2) * 512 ≤ (i 1).val ∧ (i 1).val < win0_6.index t (1 : Fin 2) * 512 + 512; omega

/-- The array after the run. -/
theorem final6 (c : Dev nD) : (dats m 0 c).arrAt 6 cfg0.N = hidG m c :=
  (dats m 0 c).arrAt_eq_of_cover 6 (hidG m c) (fun t _ => flushed6_eq m c t) cover6

/-! ## Window 7: the new cell state -/

/-- Entry (p, q) of point t's block of window 7 is entry (512·t + p, q) of its array. -/
theorem emb7 (t : Fin cfg0.N) (p q : Fin 512) : ((cfg0.win 7).blk t).view.emb (ix2 p q) = ix2 (row t p) q := by
  obtain ⟨-, -, -, -, -, -, -, -, -, -, -, -, e60, e61, e70, e71⟩ := idx_facts t
  funext a; apply Fin.ext
  match a with
  | ⟨0, _⟩ => show win0_7.index t (0 : Fin 2) * 512 + 1 * p.val = 512 * t.val + p.val; omega
  | ⟨1, _⟩ => show win0_7.index t (1 : Fin 2) * 512 + 1 * q.val = q.val; omega

/-- What point t writes back through window 7 is its rows of the specification's array. -/
theorem flushed7_eq (c : Dev nD) (t : Fin cfg0.N) :
    (dats m 0 c).flushed 7 t = ((cfg0.win 7).blk t).view.read (Elt Ideal) (cellG m c) := by
  show (cfg0.win 7).cut (grid0.coords t) ((dats m 0 c).after 7 t) = _
  rw [after7]
  unfold out7
  rw [View.canon_unit_zero zeros2]
  funext j
  obtain ⟨p, q, rfl⟩ : ∃ (p : Fin 512) (q : Fin 512), j = ix2 p q := ⟨j 0, j 1, eq_ix2 j⟩
  show cellPay (iblk m c 0 t) (iblk m c 1 t) (iblk m c 2 t) (iblk m c 3 t) (iblk m c 4 t) (iblk m c 5 t) (ix2 p q) = cellG m c (((cfg0.win 7).blk t).view.emb (ix2 p q))
  rw [emb7]
  refine (cellPay_apply (iblk m c 0 t) (iblk m c 1 t) (iblk m c 2 t) (iblk m c 3 t) (iblk m c 4 t) (iblk m c 5 t) p q).trans ?_
  rw [block_gate m c t p (col 0 q), block_gate m c t p (col 1 q), block_gate m c t p (col 2 q),
    blk2_at m c t p q, V_main_arg2 m c]
  rfl

theorem mem_blk7 (t : Fin cfg0.N) (i : S16384x512.Idx) :
    i ∈ ((cfg0.win 7).blk t).view.set ↔ ∀ a : Fin 2, win0_7.index t a * S512x512.size a ≤ (i a).val
      ∧ (i a).val < win0_7.index t a * S512x512.size a + S512x512.size a := by
  show i ∈ ((View.whole main_v9_1).slice (win0_7.rect t)).set ↔ _
  rw [View.set_slice_whole, Rect.mem_set_unit]
  exact Iff.rfl

/-- Row r of the array lies in the block of point r / 512. -/
theorem cover7 (i : S16384x512.Idx) : ∃ t : Fin cfg0.N, (cfg0.win 7).flush t = true ∧ i ∈ ((cfg0.win 7).blk t).view.set := by
  have hi0 : (i 0).val < 16384 := (i 0).isLt
  have hi1 : (i 1).val < 512 := (i 1).isLt
  obtain ⟨t, ht⟩ : ∃ t : Fin cfg0.N, t.val = (i 0).val / 512 :=
    ⟨⟨(i 0).val / 512, lt_of_lt_of_eq (by omega : (i 0).val / 512 < 32) N_0.symm⟩, rfl⟩
  obtain ⟨-, -, -, -, -, -, -, -, -, -, -, -, e60, e61, e70, e71⟩ := idx_facts t
  refine ⟨t, flush0_7 t, ?_⟩
  rw [mem_blk7]
  intro a
  match a with
  | ⟨0, _⟩ => show win0_7.index t (0 : Fin 2) * 512 ≤ (i 0).val ∧ (i 0).val < win0_7.index t (0 : Fin 2) * 512 + 512; omega
  | ⟨1, _⟩ => show win0_7.index t (1 : Fin 2) * 512 ≤ (i 1).val ∧ (i 1).val < win0_7.index t (1 : Fin 2) * 512 + 512; omega

/-- The array after the run. -/
theorem final7 (c : Dev nD) : (dats m 0 c).arrAt 7 cfg0.N = cellG m c :=
  (dats m 0 c).arrAt_eq_of_cover 7 (cellG m c) (fun t _ => flushed7_eq m c t) cover7

/-! ## The run, read -/

/-- Every weakly fair execution of @main terminates without a fault with the two results at the specification's arrays
    and every argument as launched. -/
theorem run : θ_run defs (onTc (τ := τ) (main (F := Ideal))) ⟨m, fun _ => 0, ρ⟩ fun r => ∀ c : Dev nD,
      r.2.mem ((c.tc : Thread nD τ).loc main_v9_0) = hidG m c
      ∧ r.2.mem ((c.tc : Thread nD τ).loc main_v9_1) = cellG m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10) :=
  (θ_run defs _ _).mono (fun r h c => ⟨((h c).1 6).trans (final6 m c), ((h c).1 7).trans (final7 m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c))),
      ((h c).1 2).trans (((dats m 0 c).arrAt_in 2 rfl _).trans ((A_eq m c 2).trans (V_main_arg2 m c))),
      ((h c).2 main_arg3 (Pipeline.mem_restRefs_of main_arg3 (by decide) (by decide))).trans (V_main_arg3 m c),
      ((h c).2 main_arg4 (Pipeline.mem_restRefs_of main_arg4 (by decide) (by decide))).trans (V_main_arg4 m c),
      ((h c).2 main_arg5 (Pipeline.mem_restRefs_of main_arg5 (by decide) (by decide))).trans (V_main_arg5 m c),
      ((h c).2 main_arg6 (Pipeline.mem_restRefs_of main_arg6 (by decide) (by decide))).trans (V_main_arg6 m c),
      ((h c).2 main_arg7 (Pipeline.mem_restRefs_of main_arg7 (by decide) (by decide))).trans (V_main_arg7 m c),
      ((h c).2 main_arg8 (Pipeline.mem_restRefs_of main_arg8 (by decide) (by decide))).trans (V_main_arg8 m c),
      ((h c).2 main_arg9 (Pipeline.mem_restRefs_of main_arg9 (by decide) (by decide))).trans (V_main_arg9 m c),
      ((h c).2 main_arg10 (Pipeline.mem_restRefs_of main_arg10 (by decide) (by decide))).trans (V_main_arg10 m c)⟩)
    (run_main m ρ)

end Cert.KernelIdeal.KValue

end
-- ==== Proof.LibConcat2.lean ====
/-
  A concatenation of TWO arrays along the last axis, read at an index: a column below the first piece's width
  comes from the first piece at that column, a column at or above it from the second piece at the column less that
  width. Stated at rank 3 (pieces `[n0, n1, m1]` and `[n0, n1, m2]`) and at rank 2 (pieces `[n0, m1]` and
  `[n0, m2]`), with every index written by its coordinates.
-/
import Idealize.ShloMosaic.Lib.Pipeline.Value
import Idealize.ShloMosaic.Lib.ValueIdx

namespace Cert.LibConcat2

open Idealize.ShloMosaic Idealize.ShloMosaic.ValueIdx

variable {α : Type}

/-- Rank 3, a column of the first piece. -/
theorem last3_left {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : e.val < m1) :
    concatenate ⟨3, ![n0, n1, m]⟩ 2 [⟨⟨3, ![n0, n1, m1]⟩, x⟩, ⟨⟨3, ![n0, n1, m2]⟩, y⟩] h (ix3 b i e)
      = x (ix3 b i ⟨e.val, he⟩) :=
  concatenate_apply_piece (t := ⟨3, ![n0, n1, m]⟩) (2 : Fin 3) [⟨⟨3, ![n0, n1, m1]⟩, x⟩, ⟨⟨3, ![n0, n1, m2]⟩, y⟩] h (ix3 b i e) 0 Nat.zero_lt_two _ x rfl rfl 0 rfl (ix3 b i ⟨e.val, he⟩)
    (fun c hc => by
      match c with
      | ⟨0, _⟩ => rfl
      | ⟨1, _⟩ => rfl
      | ⟨2, _⟩ => exact absurd rfl hc)
    (Nat.zero_add _)

/-- Rank 3, a column of the second piece. -/
theorem last3_right {n0 n1 m1 m2 m : ℕ} (x : (⟨3, ![n0, n1, m1]⟩ : Shape).Idx → α) (y : (⟨3, ![n0, n1, m2]⟩ : Shape).Idx → α)
    (h : Shape.Concatenates [(⟨3, ![n0, n1, m1]⟩ : Shape), ⟨3, ![n0, n1, m2]⟩] ⟨3, ![n0, n1, m]⟩ 2)
    (b : Fin n0) (i : Fin n1) (e : Fin m) (he : m1 ≤ e.val) (he' : e.val - m1 < m2) :
    concatenate ⟨3, ![n0, n1, m]⟩ 2 [⟨⟨3, ![n0, n1, m1]⟩, x⟩, ⟨⟨3, ![n0, n1, m2]⟩, y⟩] h (ix3 b i e)
      = y (ix3 b i ⟨e.val - m1, he'⟩) :=
  concatenate_apply_piece (t := ⟨3, ![n0, n1, m]⟩) (2 : Fin 3) [⟨⟨3, ![n0, n1, m1]⟩, x⟩, ⟨⟨3, ![n0, n1, m2]⟩, y⟩] h (ix3 b i e) 1 Nat.one_lt_two _ y rfl rfl m1 (by simp) (ix3 b i ⟨e.val - m1, he'⟩)
    (fun c hc => by
      match c with
      | ⟨0, _⟩ => rfl
      | ⟨1, _⟩ => rfl
      | ⟨2, _⟩ => exact absurd rfl hc)
    (by show m1 + (e.val - m1) = e.val; omega)

/-- Rank 2, a column of the first piece. -/
theorem last2_left {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : e.val < m1) :
    concatenate ⟨2, ![n0, m]⟩ 1 [⟨⟨2, ![n0, m1]⟩, x⟩, ⟨⟨2, ![n0, m2]⟩, y⟩] h (ix2 i e)
      = x (ix2 i ⟨e.val, he⟩) :=
  concatenate_apply_piece (t := ⟨2, ![n0, m]⟩) (1 : Fin 2) [⟨⟨2, ![n0, m1]⟩, x⟩, ⟨⟨2, ![n0, m2]⟩, y⟩] h (ix2 i e) 0 Nat.zero_lt_two _ x rfl rfl 0 rfl (ix2 i ⟨e.val, he⟩)
    (fun c hc => by
      match c with
      | ⟨0, _⟩ => rfl
      | ⟨1, _⟩ => exact absurd rfl hc)
    (Nat.zero_add _)

/-- Rank 2, a column of the second piece. -/
theorem last2_right {n0 m1 m2 m : ℕ} (x : (⟨2, ![n0, m1]⟩ : Shape).Idx → α) (y : (⟨2, ![n0, m2]⟩ : Shape).Idx → α)
    (h : Shape.Concatenates [(⟨2, ![n0, m1]⟩ : Shape), ⟨2, ![n0, m2]⟩] ⟨2, ![n0, m]⟩ 1)
    (i : Fin n0) (e : Fin m) (he : m1 ≤ e.val) (he' : e.val - m1 < m2) :
    concatenate ⟨2, ![n0, m]⟩ 1 [⟨⟨2, ![n0, m1]⟩, x⟩, ⟨⟨2, ![n0, m2]⟩, y⟩] h (ix2 i e)
      = y (ix2 i ⟨e.val - m1, he'⟩) :=
  concatenate_apply_piece (t := ⟨2, ![n0, m]⟩) (1 : Fin 2) [⟨⟨2, ![n0, m1]⟩, x⟩, ⟨⟨2, ![n0, m2]⟩, y⟩] h (ix2 i e) 1 Nat.one_lt_two _ y rfl rfl m1 (by simp) (ix2 i ⟨e.val - m1, he'⟩)
    (fun c hc => by
      match c with
      | ⟨0, _⟩ => rfl
      | ⟨1, _⟩ => exact absurd rfl hc)
    (by show m1 + (e.val - m1) = e.val; omega)

end Cert.LibConcat2
-- ==== Proof.RefValue.lean ====
/-
  The reference's two results are the LSTM step of the specification.

  The reference joins x and h side by side into one row of 1024 features, multiplies by the transposed stack of the four
  weight matrices and adds the stacked bias: at (r, n) that is Σ_{k<1024} [x|h][r,k] · W[n,k] + b[n]. Splitting the sum at
  k = 512, the first half reads x and the left half of W, the second half reads h and the right half: the gate's
  pre-activation. Each gate is then a slice of 512 columns, the logistic function is spelt 1 / (1 + exp(−g)) with the
  constant 1.0, and the two results are c' and h'. The stacked weights and the stacked bias are kept as arrays: nothing
  here reads inside them.
-/
import proofs.«149311_j39015482916921_2_alg».proof.Proof.Gen.ReferenceIdeal.Read
import proofs.«149311_j39015482916921_2_alg».proof.Proof.Spec
import proofs.«149311_j39015482916921_2_alg».proof.Proof.LibConcat2

noncomputable section

open scoped BigOperators

namespace Cert.ReferenceIdeal.RefValue

open Cert.ReferenceIdeal Cert.ReferenceIdeal.Gen Cert.ReferenceIdeal.Read
open Idealize.ShloMosaic Idealize.ShloMosaic.ValueIdx Cert.Lstm

/-- The four weight matrices stacked along their rows, as the reference forms them. -/
abbrev Wst (x3 x5 x7 x9 : (⟨S512x1024, .f32⟩ : BufTy).Contents (Elt Ideal)) : (⟨S2048x1024, .f32⟩ : BufTy).Contents (Elt Ideal) :=
  val_main_v1 (F := Ideal) x3 x5 x7 x9
/-- The four bias vectors stacked. -/
abbrev bst (x4 x6 x8 x10 : (⟨S512, .f32⟩ : BufTy).Contents (Elt Ideal)) : (⟨S2048, .f32⟩ : BufTy).Contents (Elt Ideal) :=
  val_main_v2 (F := Ideal) x4 x6 x8 x10

variable (x0 x1 x2 : (⟨S16384x512, .f32⟩ : BufTy).Contents (Elt Ideal))
  (x3 : (⟨S512x1024, .f32⟩ : BufTy).Contents (Elt Ideal)) (x4 : (⟨S512, .f32⟩ : BufTy).Contents (Elt Ideal))
  (x5 : (⟨S512x1024, .f32⟩ : BufTy).Contents (Elt Ideal)) (x6 : (⟨S512, .f32⟩ : BufTy).Contents (Elt Ideal))
  (x7 : (⟨S512x1024, .f32⟩ : BufTy).Contents (Elt Ideal)) (x8 : (⟨S512, .f32⟩ : BufTy).Contents (Elt Ideal))
  (x9 : (⟨S512x1024, .f32⟩ : BufTy).Contents (Elt Ideal)) (x10 : (⟨S512, .f32⟩ : BufTy).Contents (Elt Ideal))

/-! ## The joined row [x|h] and the transposed stack, at an index -/

/-- A column of the joined row below 512 reads x. -/
theorem joined_left (r : Fin 16384) (k : Fin 512) : val_main_v0 (F := Ideal) x0 x1 (ix2 r (colX k)) = x0 (ix2 r k) := by
  unfold val_main_v0
  exact Cert.LibConcat2.last2_left x0 x1 _ r (colX k) k.isLt

/-- A column at or above 512 reads h at the column less 512. -/
theorem joined_right (r : Fin 16384) (k : Fin 512) : val_main_v0 (F := Ideal) x0 x1 (ix2 r (colH k)) = x1 (ix2 r k) := by
  unfold val_main_v0
  have he : 512 ≤ (colH k).val := by show 512 ≤ 512 + k.val; omega
  have he' : (colH k).val - 512 < 512 := by show 512 + k.val - 512 < 512; have := k.isLt; omega
  rw [Cert.LibConcat2.last2_right x0 x1 _ r (colH k) he he']
  exact congrArg (fun e => x1 (ix2 r e)) (Fin.ext (by show 512 + k.val - 512 = k.val; omega))

/-- The transposed stack at (k, n) is the stack at (n, k). -/
theorem stackT (k : Fin 1024) (n : Fin 2048) : val_main_v3 (F := Ideal) x3 x5 x7 x9 (ix2 k n) = Wst x3 x5 x7 x9 (ix2 n k) := by
  rw [val_main_v3_apply]
  exact congrArg _ (funext fun a => by match a with | ⟨0, _⟩ => rfl | ⟨1, _⟩ => rfl)

/-! ## The gates -/

/-- The reference's fused product plus bias at (r, n) is the gate's pre-activation. -/
theorem fused_eq_gate (r : Fin 16384) (n : Fin 2048) :
    val_main_v7 (F := Ideal) x0 x1 x3 x4 x5 x6 x7 x8 x9 x10 (ix2 r n) = gate x0 x1 (Wst x3 x5 x7 x9) (bst x4 x6 x8 x10) r n := by
  rw [val_main_v7_apply, val_main_v4_apply, val_main_v6_apply, val_main_v5_apply, sum_halves]
  unfold gate
  simp only [Ideal.addf_def]
  have el : ∀ k : Fin 1024, lidx_main_v4 (ix2 r n) k = ix2 r k := fun k =>
    funext fun a => by match a with | ⟨0, _⟩ => rfl | ⟨1, _⟩ => rfl
  have er : ∀ k : Fin 1024, ridx_main_v4 (ix2 r n) k = ix2 k n := fun k =>
    funext fun a => by match a with | ⟨0, _⟩ => rfl | ⟨1, _⟩ => rfl
  have eb : idx_main_v5 (idx_main_v6 (ix2 r n)) = ix1 n := funext fun a => by match a with | ⟨0, _⟩ => rfl
  rw [eb]
  refine congrArg (· + _) (congrArg₂ (· + ·) (Finset.sum_congr rfl fun k _ => ?_) (Finset.sum_congr rfl fun k _ => ?_))
  · rw [el, er, joined_left, stackT]
  · rw [el, er, joined_right, stackT]

/-- The same at any index of the fused array, given its coordinates. -/
theorem fused_at (j : S16384x2048.Idx) (r : Fin 16384) (n : Fin 2048) (hj : j = ix2 r n) :
    val_main_v7 (F := Ideal) x0 x1 x3 x4 x5 x6 x7 x8 x9 x10 j = gate x0 x1 (Wst x3 x5 x7 x9) (bst x4 x6 x8 x10) r n := by
  subst hj; exact fused_eq_gate x0 x1 x3 x4 x5 x6 x7 x8 x9 x10 r n

/-- Gate 0 (forget) is columns 0…511 of the fused array. -/
theorem slice_f (r : Fin 16384) (q : Fin 512) :
    val_main_v8 (F := Ideal) x0 x1 x3 x4 x5 x6 x7 x8 x9 x10 (ix2 r q) = gate x0 x1 (Wst x3 x5 x7 x9) (bst x4 x6 x8 x10) r (col 0 q) :=
  (val_main_v8_apply x0 x1 x3 x4 x5 x6 x7 x8 x9 x10 (ix2 r q)).trans (fused_at x0 x1 x3 x4 x5 x6 x7 x8 x9 x10 _ r (col 0 q)
    (funext fun a => by match a with | ⟨0, _⟩ => rfl | ⟨1, _⟩ => exact Fin.ext (by show q.val = 512 * 0 + q.val; omega)))
/-- Gate 1 (input) is columns 512…1023. -/
theorem slice_i (r : Fin 16384) (q : Fin 512) :
    val_main_v15 (F := Ideal) x0 x1 x3 x4 x5 x6 x7 x8 x9 x10 (ix2 r q) = gate x0 x1 (Wst x3 x5 x7 x9) (bst x4 x6 x8 x10) r (col 1 q) :=
  (val_main_v15_apply x0 x1 x3 x4 x5 x6 x7 x8 x9 x10 (ix2 r q)).trans (fused_at x0 x1 x3 x4 x5 x6 x7 x8 x9 x10 _ r (col 1 q)
    (funext fun a => by match a with | ⟨0, _⟩ => rfl | ⟨1, _⟩ => exact Fin.ext (by show 512 + q.val = 512 * 1 + q.val; omega)))
/-- Gate 2 (candidate) is columns 1024…1535. -/
theorem slice_c (r : Fin 16384) (q : Fin 512) :
    val_main_v22 (F := Ideal) x0 x1 x3 x4 x5 x6 x7 x8 x9 x10 (ix2 r q) = gate x0 x1 (Wst x3 x5 x7 x9) (bst x4 x6 x8 x10) r (col 2 q) :=
  (val_main_v22_apply x0 x1 x3 x4 x5 x6 x7 x8 x9 x10 (ix2 r q)).trans (fused_at x0 x1 x3 x4 x5 x6 x7 x8 x9 x10 _ r (col 2 q)
    (funext fun a => by match a with | ⟨0, _⟩ => rfl | ⟨1, _⟩ => exact Fin.ext (by show 1024 + q.val = 512 * 2 + q.val; omega)))
/-- Gate 3 (output) is columns 1536…2047. -/
theorem slice_o (r : Fin 16384) (q : Fin 512) :
    val_main_v24 (F := Ideal) x0 x1 x3 x4 x5 x6 x7 x8 x9 x10 (ix2 r q) = gate x0 x1 (Wst x3 x5 x7 x9) (bst x4 x6 x8 x10) r (col 3 q) :=
  (val_main_v24_apply x0 x1 x3 x4 x5 x6 x7 x8 x9 x10 (ix2 r q)).trans (fused_at x0 x1 x3 x4 x5 x6 x7 x8 x9 x10 _ r (col 3 q)
    (funext fun a => by match a with | ⟨0, _⟩ => rfl | ⟨1, _⟩ => exact Fin.ext (by show 1536 + q.val = 512 * 3 + q.val; omega)))

/-! ## The logistic function as the reference spells it -/

/-- The reference's expansion 1 / (1 + exp(−g)) of gate 0 is the logistic function of the gate's pre-activation. -/
theorem sig_f (r : Fin 16384) (q : Fin 512) :
    val_main_v14 (F := Ideal) x0 x1 x3 x4 x5 x6 x7 x8 x9 x10 (ix2 r q) = Ideal.logistic (gate x0 x1 (Wst x3 x5 x7 x9) (bst x4 x6 x8 x10) r (col 0 q)) := by
  rw [val_main_v14_apply, val_main_v13_apply, val_main_cst_0_apply, val_main_v12_apply, val_main_v11_apply, val_main_cst_apply, val_main_v10_apply, val_main_v9_apply, slice_f]
  simp only [Ideal.hostDivf_def, Ideal.ofBits_def, Ideal.addf_def, Ideal.hostUnary_exp_def, Ideal.hostNegf_def, Ideal.negf_def, one_f32]
  rfl

/-- The reference's expansion 1 / (1 + exp(−g)) of gate 1 is the logistic function of the gate's pre-activation. -/
theorem sig_i (r : Fin 16384) (q : Fin 512) :
    val_main_v21 (F := Ideal) x0 x1 x3 x4 x5 x6 x7 x8 x9 x10 (ix2 r q) = Ideal.logistic (gate x0 x1 (Wst x3 x5 x7 x9) (bst x4 x6 x8 x10) r (col 1 q)) := by
  rw [val_main_v21_apply, val_main_v20_apply, val_main_cst_2_apply, val_main_v19_apply, val_main_v18_apply, val_main_cst_1_apply, val_main_v17_apply, val_main_v16_apply, slice_i]
  simp only [Ideal.hostDivf_def, Ideal.ofBits_def, Ideal.addf_def, Ideal.hostUnary_exp_def, Ideal.hostNegf_def, Ideal.negf_def, one_f32]
  rfl

/-- The reference's expansion 1 / (1 + exp(−g)) of gate 3 is the logistic function of the gate's pre-activation. -/
theorem sig_o (r : Fin 16384) (q : Fin 512) :
    val_main_v30 (F := Ideal) x0 x1 x3 x4 x5 x6 x7 x8 x9 x10 (ix2 r q) = Ideal.logistic (gate x0 x1 (Wst x3 x5 x7 x9) (bst x4 x6 x8 x10) r (col 3 q)) := by
  rw [val_main_v30_apply, val_main_v29_apply, val_main_cst_4_apply, val_main_v28_apply, val_main_v27_apply, val_main_cst_3_apply, val_main_v26_apply, val_main_v25_apply, slice_o]
  simp only [Ideal.hostDivf_def, Ideal.ofBits_def, Ideal.addf_def, Ideal.hostUnary_exp_def, Ideal.hostNegf_def, Ideal.negf_def, one_f32]
  rfl

/-! ## The two results -/

/-- The reference's second result is the new cell state. -/
theorem cell_eq : val_main_v33 (F := Ideal) x0 x1 x2 x3 x4 x5 x6 x7 x8 x9 x10 = cellArr x0 x1 x2 (Wst x3 x5 x7 x9) (bst x4 x6 x8 x10) := by
  funext i
  obtain ⟨r, q, rfl⟩ : ∃ (r : Fin 16384) (q : Fin 512), i = ix2 r q := ⟨i 0, i 1, eq_ix2 i⟩
  rw [val_main_v33_apply, val_main_v31_apply, val_main_v32_apply, val_main_v23_apply, sig_f, sig_i, slice_c]
  rfl

/-- The reference's first result is the new hidden state. -/
theorem hid_eq : val_main_v35 (F := Ideal) x0 x1 x2 x3 x4 x5 x6 x7 x8 x9 x10 = hidArr x0 x1 x2 (Wst x3 x5 x7 x9) (bst x4 x6 x8 x10) := by
  funext i
  obtain ⟨r, q, rfl⟩ : ∃ (r : Fin 16384) (q : Fin 512), i = ix2 r q := ⟨i 0, i 1, eq_ix2 i⟩
  rw [val_main_v35_apply, val_main_v34_apply, sig_o, cell_eq]
  rfl

end Cert.ReferenceIdeal.RefValue

end
-- ==== Proof.lean ====
/-
  One step of an LSTM cell: a fused Pallas kernel against its jnp reference, equal over the extended reals.

  Both programs compute, for a batch of 16384 rows x, h, c of 512 features and four gates (forget, input, candidate,
  output) with weights W_g (512 × 1024) and biases b_g,

      gate_g = [x | h] · W_gᵀ + b_g,   c' = σ(f) ∗ c + σ(i) ∗ tanh(ĉ),   h' = σ(o) ∗ tanh(c').

  The reference joins x and h into one row of 1024 features and multiplies once by the stack of the four weight matrices;
  the kernel keeps x and h apart, splits the stack into its left and right halves on the host, and, over 32 blocks of 512
  batch rows, adds the two half products gate by gate. The two agree because a sum over 1024 terms is the sum of its two
  halves, which needs only associativity and commutativity of addition on the extended reals, so the precondition
  (finite inputs) is never opened. Narrowing to sixteen bits is the identity at the ideal values, the kernel's logistic
  operation is 1 / (1 + exp(−g)) as the reference spells it, and both sides read the same stacked weights and bias.

  The frames: each kernel program's run is its host prefix, then the region launched over the 32 grid points with the
  body's triple at every point; the reference's frame is its run with the results dropped. The idealization rewrote no
  operation, so there is nothing to preserve.
-/
import proofs.«149311_j39015482916921_2_alg».proof.Defs
import proofs.«149311_j39015482916921_2_alg».proof.Proof.Gen.Kernel
import proofs.«149311_j39015482916921_2_alg».proof.Proof.Gen.KernelIdeal
import proofs.«149311_j39015482916921_2_alg».proof.Proof.Gen.ReferenceIdeal
import proofs.«149311_j39015482916921_2_alg».proof.Proof.Gen.Pre_finite_inputs
import proofs.«149311_j39015482916921_2_alg».proof.Proof.Gen.ReferenceIdeal.Run
import proofs.«149311_j39015482916921_2_alg».proof.Proof.Gen.ReferenceIdeal.Read
import proofs.«149311_j39015482916921_2_alg».proof.Proof.RunBits
import proofs.«149311_j39015482916921_2_alg».proof.Proof.RunIdeal
import proofs.«149311_j39015482916921_2_alg».proof.Proof.KernelValue
import proofs.«149311_j39015482916921_2_alg».proof.Proof.RefValue
import Idealize.ShloMosaic.Adequacy
import Idealize.ShloMosaic.Init

set_option maxRecDepth 16384

noncomputable section

namespace Cert.Proof

open Idealize.ShloMosaic Idealize.SL.Sem

/-- The kernel as printed runs to the end, faults nowhere and leaves its arguments as launched. -/
theorem frame_kernel : Cert.frame_Kernel := fun m ρ _ => Cert.Kernel.Run.frame m ρ

/-- So does its idealization. -/
theorem frame_kernelIdeal : Cert.frame_KernelIdeal := fun m ρ _ => Cert.KernelIdeal.Run.frame m ρ

/-- The reference is host operations only: its frame is its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments both programs end with h' and c' of the specification. -/
theorem algebraic : Cert.algebraic_KernelIdeal_ReferenceIdeal := by
  intro m ρ m' ρ' _ hagree
  refine ⟨fun c => Cert.KernelIdeal.KValue.hidG m c, fun c => Cert.KernelIdeal.KValue.cellG m c,
    Cert.KernelIdeal.KValue.run m ρ, ?_⟩
  refine (θ_run Cert.ReferenceIdeal.defs _ _).mono (fun _ h c => ⟨?_, ?_, (h c).2.2⟩)
    (Cert.ReferenceIdeal.Value.run (F := Ideal) m' ρ')
  · obtain ⟨a0, a1, a2, a3, a4, a5, a6, a7, a8, a9, a10⟩ := hagree c
    rw [(h c).1, Cert.ReferenceIdeal.Read.val_main_v35_eq, Cert.ReferenceIdeal.RefValue.hid_eq,
      a0, a1, a2, a3, a4, a5, a6, a7, a8, a9, a10]
    rfl
  · obtain ⟨a0, a1, a2, a3, a4, a5, a6, a7, a8, a9, a10⟩ := hagree c
    rw [(h c).2.1, Cert.ReferenceIdeal.Read.val_main_v33_eq, Cert.ReferenceIdeal.RefValue.cell_eq,
      a0, a1, a2, a3, a4, a5, a6, a7, a8, a9, a10]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
